-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x131072 : Shape := ⟨2, ![32, 131072]⟩
abbrev S32x512 : Shape := ⟨2, ![32, 512]⟩
abbrev S32x64 : Shape := ⟨2, ![32, 64]⟩
abbrev S256x32 : Shape := ⟨2, ![256, 32]⟩
abbrev S256 : Shape := ⟨1, ![256]⟩
abbrev S_ : Shape := ⟨0, ![]⟩

class Facts : Prop where
  bcast_S_S32x131072 : S_.BroadcastsInDim S32x131072 (![] : Fin 0 → Fin S32x131072.rank)
  reducesTo_S32x131072_S_d0_1 : S32x131072.ReducesTo [0, 1] S_
  h_S_ : 0 < S_.numel
  bcast_S_S32x512 : S_.BroadcastsInDim S32x512 (![] : Fin 0 → Fin S32x512.rank)
  reducesTo_S32x512_S_d0_1 : S32x512.ReducesTo [0, 1] S_
  bcast_S_S32x64 : S_.BroadcastsInDim S32x64 (![] : Fin 0 → Fin S32x64.rank)
  reducesTo_S32x64_S_d0_1 : S32x64.ReducesTo [0, 1] S_
  bcast_S_S256x32 : S_.BroadcastsInDim S256x32 (![] : Fin 0 → Fin S256x32.rank)
  reducesTo_S256x32_S_d0_1 : S256x32.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg4 : FVec F S32x512 .f32) (main_arg5 : FVec F S32x64 .f32) (main_arg6 : FVec F S256x32 .f32) (main_arg7 : FVec F S256 .f32) (main_v13 : IVec S_ 1) (main_v16 : IVec S32x512 1) : IVec S_ 1 :=
  let main_c_5 : IVec S_ 1 := constantI S_ 1 1#1
  let main_v17 : IVec S_ 1 := (fun x v => Host.reduce IntOp.andi x v reducesTo_S32x512_S_d0_1 h_S_) main_v16 main_c_5
  let main_v18 : IVec S_ 1 := andi main_v13 main_v17
  let main_v19 : FVec F S32x512 .f32 := Host.absf main_arg4
  let main_cst_6 : FVec F S_ .f32 := constant S_ .f32 0x7F800000#32
  let main_v20 : FVec F S32x512 .f32 := broadcastInDim S32x512 ![] bcast_S_S32x512 main_cst_6
  let main_v21 : IVec S32x512 1 := cmpf .olt main_v19 main_v20
  let main_c_7 : IVec S_ 1 := constantI S_ 1 1#1
  let main_v22 : IVec S_ 1 := (fun x v => Host.reduce IntOp.andi x v reducesTo_S32x512_S_d0_1 h_S_) main_v21 main_c_7
  let main_v23 : IVec S_ 1 := andi main_v18 main_v22
  let main_v24 : FVec F S32x64 .f32 := Host.absf main_arg5
  let main_cst_8 : FVec F S_ .f32 := constant S_ .f32 0x7F800000#32
  let main_v25 : FVec F S32x64 .f32 := broadcastInDim S32x64 ![] bcast_S_S32x64 main_cst_8
  let main_v26 : IVec S32x64 1 := cmpf .olt main_v24 main_v25
  let main_c_9 : IVec S_ 1 := constantI S_ 1 1#1
  let main_v27 : IVec S_ 1 := (fun x v => Host.reduce IntOp.andi x v reducesTo_S32x64_S_d0_1 h_S_) main_v26 main_c_9
  let main_v28 : IVec S_ 1 := andi main_v23 main_v27
  let main_v29 : FVec F S256x32 .f32 := Host.absf main_arg6
  let main_cst_10 : FVec F S_ .f32 := constant S_ .f32 0x7F800000#32
  let main_v30 : FVec F S256x32 .f32 := broadcastInDim S256x32 ![] bcast_S_S256x32 main_cst_10
  let main_v31 : IVec S256x32 1 := cmpf .olt main_v29 main_v30
  let main_c_11 : IVec S_ 1 := constantI S_ 1 1#1
  let main_v32 : IVec S_ 1 := (fun x v => Host.reduce IntOp.andi x v reducesTo_S256x32_S_d0_1 h_S_) main_v31 main_c_11
  let main_v33 : IVec S_ 1 := andi main_v28 main_v32
  fn_part2 (F := F) main_arg7 main_v33

def fn {F : FTy → Type} [FloatOps F] (main_arg0 : FVec F S32x131072 .f32) (main_arg1 : FVec F S32x131072 .f32) (main_arg2 : FVec F S32x131072 .f32) (main_arg3 : FVec F S32x512 .f32) (main_arg4 : FVec F S32x512 .f32) (main_arg5 : FVec F S32x64 .f32) (main_arg6 : FVec F S256x32 .f32) (main_arg7 : FVec F S256 .f32) : IVec S_ 1 :=
  let main_v0 : FVec F S32x131072 .f32 := Host.absf main_arg0
  let main_cst : FVec F S_ .f32 := constant S_ .f32 0x7F800000#32
  let main_v1 : FVec F S32x131072 .f32 := broadcastInDim S32x131072 ![] bcast_S_S32x131072 main_cst
  let main_v2 : IVec S32x131072 1 := cmpf .olt main_v0 main_v1
  let main_c : IVec S_ 1 := constantI S_ 1 1#1
  let main_v3 : IVec S_ 1 := (fun x v => Host.reduce IntOp.andi x v reducesTo_S32x131072_S_d0_1 h_S_) main_v2 main_c
  let main_v4 : FVec F S32x131072 .f32 := Host.absf main_arg1
  let main_cst_0 : FVec F S_ .f32 := constant S_ .f32 0x7F800000#32
  let main_v5 : FVec F S32x131072 .f32 := broadcastInDim S32x131072 ![] bcast_S_S32x131072 main_cst_0
  let main_v6 : IVec S32x131072 1 := cmpf .olt main_v4 main_v5
  let main_c_1 : IVec S_ 1 := constantI S_ 1 1#1
  let main_v7 : IVec S_ 1 := (fun x v => Host.reduce IntOp.andi x v reducesTo_S32x131072_S_d0_1 h_S_) main_v6 main_c_1
  let main_v8 : IVec S_ 1 := andi main_v3 main_v7
  let main_v9 : FVec F S32x131072 .f32 := Host.absf main_arg2
  let main_cst_2 : FVec F S_ .f32 := constant S_ .f32 0x7F800000#32
  let main_v10 : FVec F S32x131072 .f32 := broadcastInDim S32x131072 ![] bcast_S_S32x131072 main_cst_2
  let main_v11 : IVec S32x131072 1 := cmpf .olt main_v9 main_v10
  let main_c_3 : IVec S_ 1 := constantI S_ 1 1#1
  let main_v12 : IVec S_ 1 := (fun x v => Host.reduce IntOp.andi x v reducesTo_S32x131072_S_d0_1 h_S_) main_v11 main_c_3
  let main_v13 : IVec S_ 1 := andi main_v8 main_v12
  let main_v14 : FVec F S32x512 .f32 := Host.absf main_arg3
  let main_cst_4 : FVec F S_ .f32 := constant S_ .f32 0x7F800000#32
  let main_v15 : FVec F S32x512 .f32 := broadcastInDim S32x512 ![] bcast_S_S32x512 main_cst_4
  let main_v16 : IVec S32x512 1 := cmpf .olt main_v14 main_v15
  fn_part1 (F := F) main_arg4 main_arg5 main_arg6 main_arg7 main_v13 main_v16
-- ==== Kernel.lean ====
abbrev S32x131072 : Shape := ⟨2, ![32, 131072]⟩
abbrev S32x512 : Shape := ⟨2, ![32, 512]⟩
abbrev S32x64 : Shape := ⟨2, ![32, 64]⟩
abbrev S256x32 : Shape := ⟨2, ![256, 32]⟩
abbrev S256 : Shape := ⟨1, ![256]⟩
abbrev S1x32x512 : Shape := ⟨3, ![1, 32, 512]⟩
abbrev S32x32x512 : Shape := ⟨3, ![32, 32, 512]⟩
abbrev S1x32x64 : Shape := ⟨3, ![1, 32, 64]⟩
abbrev S32x32x64 : Shape := ⟨3, ![32, 32, 64]⟩
abbrev S32x256 : Shape := ⟨2, ![32, 256]⟩
abbrev S1x256 : Shape := ⟨2, ![1, 256]⟩
abbrev S131072x256 : Shape := ⟨2, ![131072, 256]⟩
abbrev S512x256 : Shape := ⟨2, ![512, 256]⟩
abbrev S1x512x1 : Shape := ⟨3, ![1, 512, 1]⟩
abbrev S32x1x512 : Shape := ⟨3, ![32, 1, 512]⟩
abbrev S32x512x512 : Shape := ⟨3, ![32, 512, 512]⟩
abbrev S1x64x1 : Shape := ⟨3, ![1, 64, 1]⟩
abbrev S32x64x512 : Shape := ⟨3, ![32, 64, 512]⟩
abbrev S512x32 : Shape := ⟨2, ![512, 32]⟩

abbrev nBuf : Space → Nat
  | .hbm => 21
  | .vmem => 13
  | .smem => 0
  | _ => 0

abbrev bufTy : (tb : Table) → Fin (tcTables nBuf tb) → BufTy
  | .hbm, ⟨0, _⟩ => ⟨S32x131072, .f32⟩
  | .hbm, ⟨1, _⟩ => ⟨S32x131072, .f32⟩
  | .hbm, ⟨2, _⟩ => ⟨S32x131072, .f32⟩
  | .hbm, ⟨3, _⟩ => ⟨S32x512, .f32⟩
  | .hbm, ⟨4, _⟩ => ⟨S32x512, .f32⟩
  | .hbm, ⟨5, _⟩ => ⟨S32x64, .f32⟩
  | .hbm, ⟨6, _⟩ => ⟨S256x32, .f32⟩
  | .hbm, ⟨7, _⟩ => ⟨S256, .f32⟩
  | .hbm, ⟨8, _⟩ => ⟨S32x512, .bf16⟩
  | .hbm, ⟨9, _⟩ => ⟨S1x32x512, .bf16⟩
  | .hbm, ⟨10, _⟩ => ⟨S32x32x512, .bf16⟩
  | .hbm, ⟨11, _⟩ => ⟨S32x512, .bf16⟩
  | .hbm, ⟨12, _⟩ => ⟨S1x32x512, .bf16⟩
  | .hbm, ⟨13, _⟩ => ⟨S32x32x512, .bf16⟩
  | .hbm, ⟨14, _⟩ => ⟨S32x64, .bf16⟩
  | .hbm, ⟨15, _⟩ => ⟨S1x32x64, .bf16⟩
  | .hbm, ⟨16, _⟩ => ⟨S32x32x64, .bf16⟩
  | .hbm, ⟨17, _⟩ => ⟨S32x256, .f32⟩
  | .hbm, ⟨18, _⟩ => ⟨S32x256, .bf16⟩
  | .hbm, ⟨19, _⟩ => ⟨S1x256, .f32⟩
  | .hbm, ⟨20, _⟩ => ⟨S131072x256, .f32⟩
  | .local _ .vmem, ⟨0, _⟩ => ⟨S32x512, .f32⟩
  | .local _ .vmem, ⟨1, _⟩ => ⟨S32x512, .f32⟩
  | .local _ .vmem, ⟨2, _⟩ => ⟨S32x512, .f32⟩
  | .local _ .vmem, ⟨3, _⟩ => ⟨S32x512, .f32⟩
  | .local _ .vmem, ⟨4, _⟩ => ⟨S32x512, .f32⟩
  | .local _ .vmem, ⟨5, _⟩ => ⟨S32x512, .f32⟩
  | .local _ .vmem, ⟨6, _⟩ => ⟨S32x32x512, .bf16⟩
  | .local _ .vmem, ⟨7, _⟩ => ⟨S32x32x512, .bf16⟩
  | .local _ .vmem, ⟨8, _⟩ => ⟨S32x32x64, .bf16⟩
  | .local _ .vmem, ⟨9, _⟩ => ⟨S32x256, .bf16⟩
  | .local _ .vmem, ⟨10, _⟩ => ⟨S1x256, .f32⟩
  | .local _ .vmem, ⟨11, _⟩ => ⟨S512x256, .f32⟩
  | .local _ .vmem, ⟨12, _⟩ => ⟨S512x256, .f32⟩
  | _, _ => ⟨S32x131072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x32x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x32x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  bcast_S32x512_S1x32x512_1_2 : S32x512.BroadcastsInDim S1x32x512 (![1, 2] : Fin 2 → Fin S1x32x512.rank)
  bcast_S1x32x512_S32x32x512_0_1_2 : S1x32x512.BroadcastsInDim S32x32x512 (![0, 1, 2] : Fin 3 → Fin S32x32x512.rank)
  bcast_S32x64_S1x32x64_1_2 : S32x64.BroadcastsInDim S1x32x64 (![1, 2] : Fin 2 → Fin S1x32x64.rank)
  bcast_S1x32x64_S32x32x64_0_1_2 : S1x32x64.BroadcastsInDim S32x32x64 (![0, 1, 2] : Fin 3 → Fin S32x32x64.rank)
  transposes_S256x32_S32x256_1_0 : S256x32.Transposes [1, 0] S32x256
  shapeCasts_S256_S1x256 : S256.ShapeCasts S1x256
  inb_S32x512_S32x512_0_0 : ∀ a, (![0, 0] : Fin 2 → Nat) a + S32x512.size a ≤ S32x512.size a
  h_S32x512 : 0 < S32x512.numel
  iota_S1x512x1_d1_w32 : S1x512x1.Iotas .tc 32 [1]
  shapeCasts_S32x512_S32x1x512 : S32x512.ShapeCasts S32x1x512
  broadcasts_S32x1x512_S32x512x512 : S32x1x512.Broadcasts S32x512x512
  broadcasts_S1x512x1_S32x512x512 : S1x512x1.Broadcasts S32x512x512
  natLt_1_32 : 1 < 32
  inb_S32x32x512_S32x32x512_0_0_0 : ∀ a, (![0, 0, 0] : Fin 3 → Nat) a + S32x32x512.size a ≤ S32x32x512.size a
  h_S32x32x512 : 0 < S32x32x512.numel
  shapeCasts_S32x32x512_S32x32x512 : S32x32x512.ShapeCasts S32x32x512
  iota_S1x64x1_d1_w32 : S1x64x1.Iotas .tc 32 [1]
  broadcasts_S32x1x512_S32x64x512 : S32x1x512.Broadcasts S32x64x512
  broadcasts_S1x64x1_S32x64x512 : S1x64x1.Broadcasts S32x64x512
  inb_S32x32x64_S32x32x64_0_0_0 : ∀ a, (![0, 0, 0] : Fin 3 → Nat) a + S32x32x64.size a ≤ S32x32x64.size a
  h_S32x32x64 : 0 < S32x32x64.numel
  shapeCasts_S32x32x64_S32x32x64 : S32x32x64.ShapeCasts S32x32x64
  reduces_S32x32x512_S32x512 : S32x32x512.Reduces [1] S32x512
  transposes_S32x512_p1_0_S512x32 : S32x512.Transposes [1, 0] S512x32
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  dot_S32x32x512_S32x512x512_S32x32x512_2_1_1_2_0_0_wf : DotDims.WF S32x32x512 S32x512x512 S32x32x512 [2] [1] [1] [2] [0] [0]
  dot_S32x32x64_S32x64x512_S32x32x512_2_1_1_2_0_0_wf : DotDims.WF S32x32x64 S32x64x512 S32x32x512 [2] [1] [1] [2] [0] [0]
  dot_S512x32_S32x256_S512x256_1_0_0_1_n_n_wf : DotDims.WF S512x32 S32x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x512.size a ≤ S32x131072.size a
  hwx0_0 : ∀ i : grid0.Coords, EltTy.bits .f32 = 32 ∨ (Rect.block (s := S32x131072) S32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S32x131072.size a
  hwx0_1 : ∀ i : grid0.Coords, EltTy.bits .f32 = 32 ∨ (Rect.block (s := S32x131072) S32x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x512.size a ≤ S32x131072.size a
  hwx0_2 : ∀ i : grid0.Coords, EltTy.bits .f32 = 32 ∨ (Rect.block (s := S32x131072) S32x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32x512.size a ≤ S32x32x512.size a
  hwx0_3 : ∀ i : grid0.Coords, EltTy.bits .bf16 = 32 ∨ (Rect.block (s := S32x32x512) S32x32x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x32x512.size a ≤ S32x32x512.size a
  hwx0_4 : ∀ i : grid0.Coords, EltTy.bits .bf16 = 32 ∨ (Rect.block (s := S32x32x512) S32x32x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32x64.size a ≤ S32x32x64.size a
  hwx0_5 : ∀ i : grid0.Coords, EltTy.bits .bf16 = 32 ∨ (Rect.block (s := S32x32x64) S32x32x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x256.size a ≤ S32x256.size a
  hwx0_6 : ∀ i : grid0.Coords, EltTy.bits .bf16 = 32 ∨ (Rect.block (s := S32x256) S32x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x256.size a ≤ S131072x256.size a
  hwx0_8 : ∀ i : grid0.Coords, EltTy.bits .f32 = 32 ∨ (Rect.block (s := S131072x256) S512x256.size (cc0_transform_8 i) (hinb0_8 i)).WholeWords (EltTy.packing .f32)

variable [Facts₀]

def dot_S32x32x512_S32x512x512_S32x32x512_2_1_1_2_0_0 : DotDims S32x32x512 S32x512x512 S32x32x512 where
  lhsContracting := [2]
  rhsContracting := [1]
  lhsNonContracting := [1]
  rhsNonContracting := [2]
  lhsBatch := [0]
  rhsBatch := [0]
  wf := dot_S32x32x512_S32x512x512_S32x32x512_2_1_1_2_0_0_wf
def dot_S32x32x64_S32x64x512_S32x32x512_2_1_1_2_0_0 : DotDims S32x32x64 S32x64x512 S32x32x512 where
  lhsContracting := [2]
  rhsContracting := [1]
  lhsNonContracting := [1]
  rhsNonContracting := [2]
  lhsBatch := [0]
  rhsBatch := [0]
  wf := dot_S32x32x64_S32x64x512_S32x32x512_2_1_1_2_0_0_wf
def dot_S512x32_S32x256_S512x256_1_0_0_1_n_n : DotDims S512x32 S32x256 S512x256 where
  lhsContracting := [1]
  rhsContracting := [0]
  lhsNonContracting := [0]
  rhsNonContracting := [1]
  lhsBatch := []
  rhsBatch := []
  wf := dot_S512x32_S32x256_S512x256_1_0_0_1_n_n_wf

abbrev win0_0 : Pipeline.Window sig grid0 :=
  Pipeline.Window.ofSpec (Memref.whole main_arg0) S32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S32x32x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S32x32x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S32x32x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S32x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S512x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32x131072 : Shape := ⟨2, ![32, 131072]⟩
abbrev S32x512 : Shape := ⟨2, ![32, 512]⟩
abbrev S32x64 : Shape := ⟨2, ![32, 64]⟩
abbrev S256x32 : Shape := ⟨2, ![256, 32]⟩
abbrev S256 : Shape := ⟨1, ![256]⟩
abbrev S_ : Shape := ⟨0, ![]⟩
abbrev S32x131072x1 : Shape := ⟨3, ![32, 131072, 1]⟩
abbrev S32x32x131072 : Shape := ⟨3, ![32, 32, 131072]⟩
abbrev S131072x32 : Shape := ⟨2, ![131072, 32]⟩
abbrev S32x256 : Shape := ⟨2, ![32, 256]⟩
abbrev S131072x256 : Shape := ⟨2, ![131072, 256]⟩
abbrev S1x256 : Shape := ⟨2, ![1, 256]⟩

abbrev nBuf : Space → Nat
  | .hbm => 87
  | .vmem => 0
  | .smem => 0
  | _ => 0

abbrev bufTy : (tb : Table) → Fin (tcTables nBuf tb) → BufTy
  | .hbm, ⟨0, _⟩ => ⟨S32x131072, .f32⟩
  | .hbm, ⟨1, _⟩ => ⟨S32x131072, .f32⟩
  | .hbm, ⟨2, _⟩ => ⟨S32x131072, .f32⟩
  | .hbm, ⟨3, _⟩ => ⟨S32x512, .f32⟩
  | .hbm, ⟨4, _⟩ => ⟨S32x512, .f32⟩
  | .hbm, ⟨5, _⟩ => ⟨S32x64, .f32⟩
  | .hbm, ⟨6, _⟩ => ⟨S256x32, .f32⟩
  | .hbm, ⟨7, _⟩ => ⟨S256, .f32⟩
  | .hbm, ⟨8, _⟩ => ⟨S_, .f32⟩
  | .hbm, ⟨9, _⟩ => ⟨S32x131072, .f32⟩
  | .hbm, ⟨10, _⟩ => ⟨S32x131072, .f32⟩
  | .hbm, ⟨11, _⟩ => ⟨S32x131072, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S32x131072, .i32⟩
  | .hbm, ⟨16, _⟩ => ⟨S32x131072, .i32⟩
  | .hbm, ⟨17, _⟩ => ⟨S_, .i32⟩
  | .hbm, ⟨18, _⟩ => ⟨S32x131072, .i32⟩
  | .hbm, ⟨19, _⟩ => ⟨S32x131072, .i32⟩
  | .hbm, ⟨20, _⟩ => ⟨S_, .f32⟩
  | .hbm, ⟨21, _⟩ => ⟨S32x131072, .f32⟩
  | .hbm, ⟨22, _⟩ => ⟨S32x131072, .f32⟩
  | .hbm, ⟨23, _⟩ => ⟨S_, .f32⟩
  | .hbm, ⟨24, _⟩ => ⟨S32x131072, .f32⟩
  | .hbm, ⟨25, _⟩ => ⟨S32x131072, .f32⟩
  | .hbm, ⟨26, _⟩ => ⟨S32x131072, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S32x131072, .i32⟩
  | .hbm, ⟨31, _⟩ => ⟨S32x131072, .i32⟩
  | .hbm, ⟨32, _⟩ => ⟨S_, .i32⟩
  | .hbm, ⟨33, _⟩ => ⟨S32x131072, .i32⟩
  | .hbm, ⟨34, _⟩ => ⟨S32x131072, .i32⟩
  | .hbm, ⟨35, _⟩ => ⟨S_, .f32⟩
  | .hbm, ⟨36, _⟩ => ⟨S32x131072, .f32⟩
  | .hbm, ⟨37, _⟩ => ⟨S32x131072, .f32⟩
  | .hbm, ⟨38, _⟩ => ⟨S_, .f32⟩
  | .hbm, ⟨39, _⟩ => ⟨S32x131072, .f32⟩
  | .hbm, ⟨40, _⟩ => ⟨S32x131072, .f32⟩
  | .hbm, ⟨41, _⟩ => ⟨S32x131072, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S32x131072, .i32⟩
  | .hbm, ⟨46, _⟩ => ⟨S32x131072, .i32⟩
  | .hbm, ⟨47, _⟩ => ⟨S_, .i32⟩
  | .hbm, ⟨48, _⟩ => ⟨S32x131072, .i32⟩
  | .hbm, ⟨49, _⟩ => ⟨S32x131072, .i32⟩
  | .hbm, ⟨50, _⟩ => ⟨S_, .i32⟩
  | .hbm, ⟨51, _⟩ => ⟨S32x131072, .i32⟩
  | .hbm, ⟨52, _⟩ => ⟨S32x131072, .i1⟩
  | .hbm, ⟨53, _⟩ => ⟨S_, .i32⟩
  | .hbm, ⟨54, _⟩ => ⟨S32x131072, .i32⟩
  | .hbm, ⟨55, _⟩ => ⟨S32x131072, .i32⟩
  | .hbm, ⟨56, _⟩ => ⟨S32x131072, .i32⟩
  | .hbm, ⟨57, _⟩ => ⟨S32x131072x1, .i32⟩
  | .hbm, ⟨58, _⟩ => ⟨S32x32x131072, .f32⟩
  | .hbm, ⟨59, _⟩ => ⟨S_, .i32⟩
  | .hbm, ⟨60, _⟩ => ⟨S32x131072, .i32⟩
  | .hbm, ⟨61, _⟩ => ⟨S32x131072, .i1⟩
  | .hbm, ⟨62, _⟩ => ⟨S_, .i32⟩
  | .hbm, ⟨63, _⟩ => ⟨S32x131072, .i32⟩
  | .hbm, ⟨64, _⟩ => ⟨S32x131072, .i32⟩
  | .hbm, ⟨65, _⟩ => ⟨S32x131072, .i32⟩
  | .hbm, ⟨66, _⟩ => ⟨S32x131072x1, .i32⟩
  | .hbm, ⟨67, _⟩ => ⟨S32x32x131072, .f32⟩
  | .hbm, ⟨68, _⟩ => ⟨S_, .i32⟩
  | .hbm, ⟨69, _⟩ => ⟨S32x131072, .i32⟩
  | .hbm, ⟨70, _⟩ => ⟨S32x131072, .i1⟩
  | .hbm, ⟨71, _⟩ => ⟨S_, .i32⟩
  | .hbm, ⟨72, _⟩ => ⟨S32x131072, .i32⟩
  | .hbm, ⟨73, _⟩ => ⟨S32x131072, .i32⟩
  | .hbm, ⟨74, _⟩ => ⟨S32x131072, .i32⟩
  | .hbm, ⟨75, _⟩ => ⟨S32x131072x1, .i32⟩
  | .hbm, ⟨76, _⟩ => ⟨S32x32x131072, .f32⟩
  | .hbm, ⟨77, _⟩ => ⟨S32x32x131072, .f32⟩
  | .hbm, ⟨78, _⟩ => ⟨S32x32x131072, .f32⟩
  | .hbm, ⟨79, _⟩ => ⟨S_, .f32⟩
  | .hbm, ⟨80, _⟩ => ⟨S32x131072, .f32⟩
  | .hbm, ⟨81, _⟩ => ⟨S131072x32, .f32⟩
  | .hbm, ⟨82, _⟩ => ⟨S32x256, .f32⟩
  | .hbm, ⟨83, _⟩ => ⟨S131072x256, .f32⟩
  | .hbm, ⟨84, _⟩ => ⟨S1x256, .f32⟩
  | .hbm, ⟨85, _⟩ => ⟨S131072x256, .f32⟩
  | .hbm, ⟨86, _⟩ => ⟨S131072x256, .f32⟩
  | _, _ => ⟨S32x131072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_cst_2 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_c_3 : Ref sig .tc := ⟨.hbm, 27, rfl⟩
abbrev main_c_4 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v9 : Ref sig .tc := ⟨.hbm, 34, rfl⟩
abbrev main_cst_5 : Ref sig .tc := ⟨.hbm, 35, rfl⟩
abbrev main_v10 : Ref sig .tc := ⟨.hbm, 36, rfl⟩
abbrev main_v11 : Ref sig .tc := ⟨.hbm, 37, rfl⟩
abbrev main_cst_6 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_c_7 : Ref sig .tc := ⟨.hbm, 42, rfl⟩
abbrev main_c_8 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_v15 : Ref sig .tc := ⟨.hbm, 49, rfl⟩
abbrev main_c_9 : Ref sig .tc := ⟨.hbm, 50, rfl⟩
abbrev main_v16 : Ref sig .tc := ⟨.hbm, 51, rfl⟩
abbrev main_v17 : Ref sig .tc := ⟨.hbm, 52, rfl⟩
abbrev main_c_10 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_c_11 : Ref sig .tc := ⟨.hbm, 59, rfl⟩
abbrev main_v23 : Ref sig .tc := ⟨.hbm, 60, rfl⟩
abbrev main_v24 : Ref sig .tc := ⟨.hbm, 61, rfl⟩
abbrev main_c_12 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_c_13 : Ref sig .tc := ⟨.hbm, 68, rfl⟩
abbrev main_v30 : Ref sig .tc := ⟨.hbm, 69, rfl⟩
abbrev main_v31 : Ref sig .tc := ⟨.hbm, 70, rfl⟩
abbrev main_c_14 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_cst_15 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩

abbrev nD : Nat := 1
abbrev τ : Topo := Topo.v7x

variable {F : FTy → Type} [FloatOps F]

class Facts₀ : Prop where
  bcast_S_S32x131072 : S_.BroadcastsInDim S32x131072 (![] : Fin 0 → Fin S32x131072.rank)
  bcast_S32x131072_S32x131072x1_0_1 : S32x131072.BroadcastsInDim S32x131072x1 (![0, 1] : Fin 2 → Fin S32x131072x1.rank)
  reducesTo_S32x32x131072_S32x131072_d0 : S32x32x131072.ReducesTo [0] S32x131072
  h_S_ : 0 < S_.numel
  transposes_S32x131072_S131072x32_1_0 : S32x131072.Transposes [1, 0] S131072x32
  transposes_S256x32_S32x256_1_0 : S256x32.Transposes [1, 0] S32x256
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  gather_S32x512_S32x131072x1_S32x32x131072_0_1_n_n_1_2_321_wf : GatherDims.WF S32x512 S32x131072x1 S32x32x131072 [0] [1] [] [1] [] 2 ![32, 1]
  gather_S32x64_S32x131072x1_S32x32x131072_0_1_n_n_1_2_321_wf : GatherDims.WF S32x64 S32x131072x1 S32x32x131072 [0] [1] [] [1] [] 2 ![32, 1]
  dot_S131072x32_S32x256_S131072x256_1_0_0_1_n_n_wf : DotDims.WF S131072x32 S32x256 S131072x256 [1] [0] [0] [1] [] []

variable [Facts₀]

def gather_S32x512_S32x131072x1_S32x32x131072_0_1_n_n_1_2_321 : GatherDims S32x512 S32x131072x1 S32x32x131072 where
  offsetDims := [0]
  collapsedSliceDims := [1]
  operandBatchingDims := []
  startIndicesBatchingDims := []
  startIndexMap := [1]
  indexVectorDim := 2
  sliceSizes := ![32, 1]
  wf := gather_S32x512_S32x131072x1_S32x32x131072_0_1_n_n_1_2_321_wf
def gather_S32x64_S32x131072x1_S32x32x131072_0_1_n_n_1_2_321 : GatherDims S32x64 S32x131072x1 S32x32x131072 where
  offsetDims := [0]
  collapsedSliceDims := [1]
  operandBatchingDims := []
  startIndicesBatchingDims := []
  startIndexMap := [1]
  indexVectorDim := 2
  sliceSizes := ![32, 1]
  wf := gather_S32x64_S32x131072x1_S32x32x131072_0_1_n_n_1_2_321_wf
def dot_S131072x32_S32x256_S131072x256_1_0_0_1_n_n : DotDims S131072x32 S32x256 S131072x256 where
  lhsContracting := [1]
  rhsContracting := [0]
  lhsNonContracting := [0]
  rhsNonContracting := [1]
  lhsBatch := []
  rhsBatch := []
  wf := dot_S131072x32_S32x256_S131072x256_1_0_0_1_n_n_wf

class Facts : Prop extends Facts₀ where

variable [Facts]
-- ==== Proof.TableWord.lean ====
/-
  Words that address a small table, and the one-hot row that picks an entry.

  A signed 32-bit word v is clamped into [0, hi] by  min hi (max 0 v)  (both signed). For hi below 2³¹ the clamped word
  is non-negative, at most hi, and its natural value is  min hi (v read signed, cut off at 0).  So it names a column of
  a table with more than hi columns, however it is read: as a natural number, as a signed integer cut off at 0, or
  after "add the extent if negative".

  The one-hot row of a word v over the columns 0 … N−1 has the entry 1 at column v and 0 elsewhere (the comparison's
  bit widened to a word and converted to a number). Multiplying a row of extended reals by it entry by entry and
  summing leaves the row's entry at column v: every other product is x · 0 = 0, which holds of every extended real,
  infinite ones included.
-/
import Idealize.ShloMosaic.PureOps.Ideal
import Idealize.ShloMosaic.Lib.ValueIdx
import Idealize.ShloMosaic.Lib.WordArith

noncomputable section

namespace Cert.TableWord

open Idealize.ShloMosaic

/-- The signed word `v` clamped into `[0, hi]`. -/
def clampW (hi v : BitVec 32) : BitVec 32 := IntOp.minsi hi (IntOp.maxsi 0#32 v)

/-- Its natural value is the smaller of `hi` and `v` read signed and cut off at zero. -/
theorem clampW_toNat (hi v : BitVec 32) (hhi : hi.toNat < 2 ^ 31) :
    (clampW hi v).toNat = min hi.toNat v.toInt.toNat := by
  unfold clampW
  have hm : (IntOp.maxsi 0#32 v).toNat < 2 ^ 31 := by
    rw [WordArith.toNat_maxsi_zero]
    have e := BitVec.toInt_eq_toNat_cond v
    have hv := v.isLt
    split at e <;> omega
  rw [WordArith.toNat_minsi_of_lt hi _ hhi hm, WordArith.toNat_maxsi_zero]

/-- So it is at most `hi`. -/
theorem clampW_le (hi v : BitVec 32) (hhi : hi.toNat < 2 ^ 31) : (clampW hi v).toNat ≤ hi.toNat := by
  rw [clampW_toNat hi v hhi]; exact Nat.min_le_left _ _

/-- Read signed it is its natural value: it is not negative. -/
theorem clampW_toInt (hi v : BitVec 32) (hhi : hi.toNat < 2 ^ 31) : (clampW hi v).toInt = ((clampW hi v).toNat : Int) := by
  have h := clampW_le hi v hhi
  have e := BitVec.toInt_eq_toNat_cond (clampW hi v)
  split at e <;> omega

/-- The comparison "below zero" of a clamped word is the bit 0. -/
theorem clampW_slt_zero (hi v : BitVec 32) (hhi : hi.toNat < 2 ^ 31) : IntOp.cmpi .slt (clampW hi v) 0#32 = 0#1 := by
  have h := clampW_toInt hi v hhi
  have h0 : (0#32 : BitVec 32).toInt = 0 := by decide
  have : (clampW hi v).slt 0#32 = false := by
    rw [Bool.eq_false_iff]
    intro hs
    rw [BitVec.slt_iff_toInt_lt, h0] at hs
    omega
  show BitVec.ofBool ((clampW hi v).slt 0#32) = 0#1
  rw [this]; rfl

/-- The one-hot entry: the bit of `x = y`, widened to a word, as a number. -/
def hot (x y : BitVec 32) : EReal := (((BitVec.setWidth 32 (IntOp.cmpi .eq x y)).toInt : ℝ) : EReal)

theorem hot_self (x : BitVec 32) : hot x x = 1 := by
  have : IntOp.cmpi .eq x x = 1#1 := by
    show BitVec.ofBool (x == x) = 1#1
    rw [beq_self_eq_true]; rfl
  unfold hot
  rw [this]
  have : (BitVec.setWidth 32 (1#1)).toInt = 1 := by decide
  rw [this]; norm_num

theorem hot_ne (x y : BitVec 32) (h : x ≠ y) : hot x y = 0 := by
  have : IntOp.cmpi .eq x y = 0#1 := by
    show BitVec.ofBool (x == y) = 0#1
    rw [beq_eq_false_iff_ne.2 h]; rfl
  unfold hot
  rw [this]
  have : (BitVec.setWidth 32 (0#1)).toInt = 0 := by decide
  rw [this]; norm_num

/-- A row times the one-hot row of `v`, summed, is the row's entry at column `v`. -/
theorem sum_mul_hot {N : Nat} (hN : N ≤ 2 ^ 32) (a : Fin N → EReal) (v : BitVec 32) (hv : v.toNat < N) :
    ∑ i : Fin N, a i * hot v (BitVec.ofNat 32 i.val) = a ⟨v.toNat, hv⟩ := by
  rw [Finset.sum_eq_single (⟨v.toNat, hv⟩ : Fin N)]
  · have hvv : BitVec.ofNat 32 v.toNat = v := by
      apply BitVec.eq_of_toNat_eq
      rw [BitVec.toNat_ofNat]
      exact Nat.mod_eq_of_lt v.isLt
    rw [show (⟨v.toNat, hv⟩ : Fin N).val = v.toNat from rfl, hvv, hot_self, mul_one]
  · intro i _ hi
    rw [hot_ne, mul_zero]
    intro h
    apply hi
    apply Fin.ext
    have h2 := congrArg BitVec.toNat h
    rw [BitVec.toNat_ofNat] at h2
    have := i.isLt
    show i.val = v.toNat
    omega
  · intro h; exact absurd (Finset.mem_univ _) h

end Cert.TableWord

end
-- ==== Proof.Spec.lean ====
/-
  What both programs compute, as one function of the eight argument arrays.

  A sample n (0 ≤ n < 131072) has, for each of 32 slots k, three coordinates x, y, t (entries (k, n) of the three
  coordinate arrays). Each is turned into a table column: x ↦ the integer part of 511·x, y ↦ the integer part of
  512·y − 1, t ↦ the integer part of 64·t − 1, clamped into the table's columns (0…511, 0…511, 0…63). The slot's
  feature is  Σ_r A[r, col x] · B[r, col y] · C[r, col t]  over the 32 rows r of the three tables, and the result is
  the dense layer  out[n, f] = Σ_k feature(k, n) · W[f, k] + b[f].
-/
import proofs.«112790_j70884140253839_1_alg».proof.Proof.TableWord

noncomputable section

namespace Cert.FieldSpec

open Idealize.ShloMosaic Idealize.ShloMosaic.ValueIdx Cert.TableWord

/-- The clamped column word of an x coordinate: the integer part of 511·x, in [0, 511]. -/
def wordX (x : EReal) : BitVec 32 := clampW 511#32 (Ideal.fptosi 32 (x * Ideal.ofBits .f32 0x43FF8000#32))
/-- The clamped column word of a y coordinate: the integer part of 512·y − 1, in [0, 511]. -/
def wordY (y : EReal) : BitVec 32 :=
  clampW 511#32 (Ideal.fptosi 32 (y * Ideal.ofBits .f32 0x44000000#32 - Ideal.ofBits .f32 0x3F800000#32))
/-- The clamped column word of a t coordinate: the integer part of 64·t − 1, in [0, 63]. -/
def wordT (t : EReal) : BitVec 32 :=
  clampW 63#32 (Ideal.fptosi 32 (t * Ideal.ofBits .f32 0x42800000#32 - Ideal.ofBits .f32 0x3F800000#32))

theorem wordX_le (x : EReal) : (wordX x).toNat ≤ 511 := clampW_le 511#32 _ (by decide)
theorem wordY_le (y : EReal) : (wordY y).toNat ≤ 511 := clampW_le 511#32 _ (by decide)
theorem wordT_le (t : EReal) : (wordT t).toNat ≤ 63 := clampW_le 63#32 _ (by decide)

/-- The table columns the three words name. -/
def colX (x : EReal) : Fin 512 := ⟨(wordX x).toNat, Nat.lt_succ_of_le (wordX_le x)⟩
def colY (y : EReal) : Fin 512 := ⟨(wordY y).toNat, Nat.lt_succ_of_le (wordY_le y)⟩
def colT (t : EReal) : Fin 64 := ⟨(wordT t).toNat, Nat.lt_succ_of_le (wordT_le t)⟩

/-- One slot's feature from its three coordinates: the sum over the tables' rows of the three entries' product. -/
def feat (A B : (⟨2, ![32, 512]⟩ : Shape).Idx → EReal) (C : (⟨2, ![32, 64]⟩ : Shape).Idx → EReal) (x y t : EReal) : EReal :=
  ∑ r : Fin 32, A (ix2 r (colX x)) * B (ix2 r (colY y)) * C (ix2 r (colT t))

/-- The result array: the dense layer over the 32 slots' features, plus the bias. -/
def G (X Y T : (⟨2, ![32, 131072]⟩ : Shape).Idx → EReal) (A B : (⟨2, ![32, 512]⟩ : Shape).Idx → EReal)
    (C : (⟨2, ![32, 64]⟩ : Shape).Idx → EReal) (W : (⟨2, ![256, 32]⟩ : Shape).Idx → EReal) (b : (⟨1, ![256]⟩ : Shape).Idx → EReal) :
    (⟨2, ![131072, 256]⟩ : Shape).Idx → EReal :=
  fun j => (∑ k : Fin 32, feat A B C (X (ix2 k (j 0))) (Y (ix2 k (j 0))) (T (ix2 k (j 0))) * W (ix2 (j 1) k)) + b (ix1 (j 1))

end Cert.FieldSpec

end
-- ==== Proof.LibMatmul.lean ====
/-
  A matrix product with ONE contracted axis, into the zero accumulator, read at an output index: the sum over that
  axis's coordinate k of the left operand at L k times the right operand at R k, for any functions L, R that give the
  two operand indices at each contraction position with coordinate k.
-/
import Idealize.ShloMosaic.PureOps.Ideal
import Idealize.ShloMosaic.PureOps.Ideal.Laws
import Idealize.ShloMosaic.Lib.ValueIdx

noncomputable section

namespace Cert.LibMatmul

open Idealize.ShloMosaic Idealize.ShloMosaic.ValueIdx

/-- Σ over the contraction index re-indexed by its one coordinate. -/
theorem matmul_zero_sum1 {sl sr so : Shape} {φ₁ φ₂ : FTy} (D : DotDims sl sr so) (prec : Option ContractPrecision) (n : Nat)
    (hr : D.contr.rank = 1) (hs : D.contr.size ⟨0, by omega⟩ = n)
    (lhs : FVec Ideal sl φ₁) (rhs : FVec Ideal sr φ₂) (j : so.Idx) (L : Fin n → sl.Idx) (R : Fin n → sr.Idx)
    (hl : ∀ (q : D.contr.Idx) (k : Fin n), (q ⟨0, by omega⟩ : ℕ) = k.val → D.lhsIdx j q = L k)
    (hrr : ∀ (q : D.contr.Idx) (k : Fin n), (q ⟨0, by omega⟩ : ℕ) = k.val → D.rhsIdx j q = R k) :
    FloatOps.matmul D prec lhs rhs (constant so .f32 0x00000000#32) j = ∑ k : Fin n, lhs (L k) * rhs (R k) := by
  rw [Ideal.matmul_constant_zero_apply, ← Equiv.sum_comp (contrEquiv1 D n hr hs).symm]
  refine Finset.sum_congr rfl fun k _ => ?_
  have hk := contrEquiv1_symm_val D n hr hs k
  rw [hl _ k hk, hrr _ k hk]

end Cert.LibMatmul

end
-- ==== Proof.LibUnsqueeze.lean ====
/-
  A cast that inserts a middle axis of extent one, [a, b] → [a, 1, b], read at an index: entry (i, 0, j) of the result is
  entry (i, j) of the operand, both being at position i·b + j in row-major order. (The companion of the cast that drops
  that axis.)
-/
import Idealize.ShloMosaic.Lib.ValueIdx
import Idealize.ShloMosaic.Lib.Pipeline.Value

noncomputable section

namespace Cert.LibUnsqueeze

open Idealize.ShloMosaic Idealize.ShloMosaic.ValueIdx

variable {α : Type}

/-- An `[a, b]` array cast to `[a, 1, b]` reads, at `(i, o, j)`, the operand at `(i, j)`: the middle coordinate `o` can only
    be zero, and both positions are `i·b + j` in row-major order. -/
theorem shapeCast_ab_a1b_apply {a b : ℕ} (x : (⟨2, ![a, b]⟩ : Shape).Idx → α)
    (h : (⟨2, ![a, b]⟩ : Shape).ShapeCasts ⟨3, ![a, 1, b]⟩) (i : Fin a) (o : Fin 1) (j : Fin b) :
    shapeCast ⟨3, ![a, 1, b]⟩ x h (ix3 i o j) = x (ix2 i j) :=
  shapeCast_apply x h _ _ (by
    rw [Shape.rowMajor_val_two, Shape.rowMajor_val_three]
    show i.val * b + j.val = (i.val * 1 + o.val) * b + j.val
    have ho : o.val = 0 := by have := o.isLt; omega
    rw [ho, Nat.mul_one, Nat.add_zero])

end Cert.LibUnsqueeze

end
-- ==== Proof.KernelHot.lean ====
/-
  The kernel's table reads. The kernel has no gather: it builds, for a block of 512 samples, the one-hot tensor
  hot[k, i, p] = (word[k, p] = i) over the table's columns i, and multiplies the table (repeated over the slots k) by
  it on the matrix unit, slot by slot:  g[k, r, p] = Σ_i table[k, r, i] · hot[k, i, p].  Every term but the one at
  i = word[k, p] is a product with 0, so g[k, r, p] = table[k, r, word[k, p]] — for any extended-real table entries.
-/
import proofs.«112790_j70884140253839_1_alg».proof.Proof.Gen.KernelIdeal.Skeleton
import proofs.«112790_j70884140253839_1_alg».proof.Proof.Spec
import proofs.«112790_j70884140253839_1_alg».proof.Proof.LibMatmul
import proofs.«112790_j70884140253839_1_alg».proof.Proof.LibUnsqueeze
import Idealize.ShloMosaic.Lib.Pipeline.Value
import Idealize.ShloMosaic.Lib.ValueLayout

noncomputable section

namespace Cert.KernelIdeal.Block

open Cert.KernelIdeal Cert.KernelIdeal.Gen Idealize.ShloMosaic Idealize.ShloMosaic.ValueIdx Cert.TableWord Cert.FieldSpec

variable {α : Type}

/-- A [32, 1, 512] array broadcast along its unit axis reads, at (k, i, p), the operand at (k, 0, p). -/
theorem bcast_mid_apply {M : Nat} (v : (⟨3, ![32, 1, 512]⟩ : Shape).Idx → α)
    (h : (⟨3, ![32, 1, 512]⟩ : Shape).Broadcasts ⟨3, ![32, M, 512]⟩) (k : Fin 32) (i : Fin M) (p : Fin 512) :
    broadcastTo ⟨3, ![32, M, 512]⟩ v h (ix3 k i p) = v (ix3 k (0 : Fin 1) p) := by
  refine broadcastTo_apply v h (ix3 k i p) (ix3 k (0 : Fin 1) p) fun ax => ?_
  match ax with
  | ⟨0, _⟩ => rfl
  | ⟨1, _⟩ => rfl
  | ⟨2, _⟩ => rfl

/-- A [1, M, 1] array broadcast to [32, M, 512] reads, at (k, i, p), the operand at (0, i, 0). -/
theorem bcast_col_apply {M : Nat} (v : (⟨3, ![1, M, 1]⟩ : Shape).Idx → α)
    (h : (⟨3, ![1, M, 1]⟩ : Shape).Broadcasts ⟨3, ![32, M, 512]⟩) (k : Fin 32) (i : Fin M) (p : Fin 512) :
    broadcastTo ⟨3, ![32, M, 512]⟩ v h (ix3 k i p) = v (ix3 (0 : Fin 1) i (0 : Fin 1)) := by
  refine broadcastTo_apply v h (ix3 k i p) (ix3 (0 : Fin 1) i (0 : Fin 1)) fun ax => ?_
  match ax with
  | ⟨0, _⟩ => rfl
  | ⟨1, _⟩ =>
    show i.val = if M = 1 then 0 else i.val
    split
    · have := i.isLt; omega
    · rfl
  | ⟨2, _⟩ => rfl

/-- THE ONE-HOT TENSOR at (k, i, p): 1 when the word at (k, p) is i, else 0. -/
theorem hotTensor_apply {M : Nat} (w : IVec (⟨2, ![32, 512]⟩ : Shape) 32)
    (hc : (⟨2, ![32, 512]⟩ : Shape).ShapeCasts ⟨3, ![32, 1, 512]⟩)
    (hb1 : (⟨3, ![32, 1, 512]⟩ : Shape).Broadcasts ⟨3, ![32, M, 512]⟩)
    (hb2 : (⟨3, ![1, M, 1]⟩ : Shape).Broadcasts ⟨3, ![32, M, 512]⟩)
    (hi : (⟨3, ![1, M, 1]⟩ : Shape).Iotas .tc 32 [1]) (h1 : 1 < 32) (h2 : FTy.bits .bf16 < FTy.bits .f32)
    (k : Fin 32) (i : Fin M) (p : Fin 512) :
    (truncf .bf16 (sitofp (F := Ideal) .f32 (extui 32 (cmpi .eq
        (broadcastTo ⟨3, ![32, M, 512]⟩ (shapeCast ⟨3, ![32, 1, 512]⟩ w hc) hb1)
        (broadcastTo ⟨3, ![32, M, 512]⟩ (iota .tc ⟨3, ![1, M, 1]⟩ 32 [1] hi) hb2)) h1)) h2
      : FVec Ideal ⟨3, ![32, M, 512]⟩ .bf16) (ix3 k i p) = hot (w (ix2 k p)) (BitVec.ofNat 32 i.val) := by
  show hot (broadcastTo ⟨3, ![32, M, 512]⟩ (shapeCast ⟨3, ![32, 1, 512]⟩ w hc) hb1 (ix3 k i p))
      (broadcastTo ⟨3, ![32, M, 512]⟩ (iota .tc ⟨3, ![1, M, 1]⟩ 32 [1] hi) hb2 (ix3 k i p)) = _
  rw [bcast_mid_apply, Cert.LibUnsqueeze.shapeCast_ab_a1b_apply, bcast_col_apply, iota_single_apply]
  rfl

/-! ## The words of a block, and its one-hot tensor -/

/-- The y words of a block: entry (k, p) is the clamped column word of the block's y coordinate there. -/
theorem pay2_apply (x1 : Vec Ideal S32x512 .f32) (k : Fin 32) (p : Fin 512) :
    k0_pay2 (F := Ideal) x1 (ix2 k p) = wordY (x1 (ix2 k p)) := rfl

/-- The t words of a block. -/
theorem pay3_apply (x2 : Vec Ideal S32x512 .f32) (k : Fin 32) (p : Fin 512) :
    k0_pay3 (F := Ideal) x2 (ix2 k p) = wordT (x2 (ix2 k p)) := rfl

/-- The x words of a block come already as their one-hot tensor over the 512 columns. -/
theorem pay4_apply (x0 : Vec Ideal S32x512 .f32) (k : Fin 32) (i p : Fin 512) :
    k0_pay4 (F := Ideal) x0 (ix3 k i p) = hot (wordX (x0 (ix2 k p))) (BitVec.ofNat 32 i.val) := by
  unfold k0_pay4
  exact hotTensor_apply (fun j => wordX (x0 j)) _ _ _ _ _ _ k i p

/-- The table block is loaded as it is (a cast to its own shape). -/
theorem pay5_eq (x3 : Vec Ideal S32x32x512 .bf16) : k0_pay5 (F := Ideal) x3 = x3 := shapeCast_self _ _

/-! ## The slot-by-slot products with a one-hot tensor -/

local notation "D512" => dot_S32x32x512_S32x512x512_S32x32x512_2_1_1_2_0_0
local notation "D64" => dot_S32x32x64_S32x64x512_S32x32x512_2_1_1_2_0_0

theorem lhs512_0 (j : S32x32x512.Idx) (q : (D512).contr.Idx) : ((D512).lhsIdx j q 0).val = (j 0).val := by
  unfold DotDims.lhsIdx
  rw [dif_pos (show (0 : Fin S32x32x512.rank) ∈ (D512).lhsBatch by decide)]; rfl
theorem lhs512_1 (j : S32x32x512.Idx) (q : (D512).contr.Idx) : ((D512).lhsIdx j q 1).val = (j 1).val := by
  unfold DotDims.lhsIdx
  rw [dif_neg (show ¬(1 : Fin S32x32x512.rank) ∈ (D512).lhsBatch by decide),
    dif_pos (show (1 : Fin S32x32x512.rank) ∈ (D512).lhsNonContracting by decide)]; rfl
theorem rhs512_0 (j : S32x32x512.Idx) (q : (D512).contr.Idx) : ((D512).rhsIdx j q 0).val = (j 0).val := by
  unfold DotDims.rhsIdx
  rw [dif_pos (show (0 : Fin S32x512x512.rank) ∈ (D512).rhsBatch by decide)]; rfl
theorem rhs512_2 (j : S32x32x512.Idx) (q : (D512).contr.Idx) : ((D512).rhsIdx j q 2).val = (j 2).val := by
  unfold DotDims.rhsIdx
  rw [dif_neg (show ¬(2 : Fin S32x512x512.rank) ∈ (D512).rhsBatch by decide),
    dif_pos (show (2 : Fin S32x512x512.rank) ∈ (D512).rhsNonContracting by decide)]; rfl

theorem lhsIdx512 (k r : Fin 32) (p : Fin 512) (q : (D512).contr.Idx) (i : Fin 512) (hq : (q ⟨0, by decide⟩ : ℕ) = i.val) :
    (D512).lhsIdx (ix3 k r p) q = ix3 k r i := by
  funext a; apply Fin.ext
  match a with
  | ⟨0, _⟩ => exact lhs512_0 _ q
  | ⟨1, _⟩ => exact lhs512_1 _ q
  | ⟨2, _⟩ => exact ((D512).lhsIdx_val_of_single rfl _ q).trans hq

theorem rhsIdx512 (k r : Fin 32) (p : Fin 512) (q : (D512).contr.Idx) (i : Fin 512) (hq : (q ⟨0, by decide⟩ : ℕ) = i.val) :
    (D512).rhsIdx (ix3 k r p) q = ix3 k i p := by
  funext a; apply Fin.ext
  match a with
  | ⟨0, _⟩ => exact rhs512_0 _ q
  | ⟨1, _⟩ => exact ((D512).rhsIdx_val_of_single rfl _ q).trans hq
  | ⟨2, _⟩ => exact rhs512_2 _ q

theorem lhs64_0 (j : S32x32x512.Idx) (q : (D64).contr.Idx) : ((D64).lhsIdx j q 0).val = (j 0).val := by
  unfold DotDims.lhsIdx
  rw [dif_pos (show (0 : Fin S32x32x64.rank) ∈ (D64).lhsBatch by decide)]; rfl
theorem lhs64_1 (j : S32x32x512.Idx) (q : (D64).contr.Idx) : ((D64).lhsIdx j q 1).val = (j 1).val := by
  unfold DotDims.lhsIdx
  rw [dif_neg (show ¬(1 : Fin S32x32x64.rank) ∈ (D64).lhsBatch by decide),
    dif_pos (show (1 : Fin S32x32x64.rank) ∈ (D64).lhsNonContracting by decide)]; rfl
theorem rhs64_0 (j : S32x32x512.Idx) (q : (D64).contr.Idx) : ((D64).rhsIdx j q 0).val = (j 0).val := by
  unfold DotDims.rhsIdx
  rw [dif_pos (show (0 : Fin S32x64x512.rank) ∈ (D64).rhsBatch by decide)]; rfl
theorem rhs64_2 (j : S32x32x512.Idx) (q : (D64).contr.Idx) : ((D64).rhsIdx j q 2).val = (j 2).val := by
  unfold DotDims.rhsIdx
  rw [dif_neg (show ¬(2 : Fin S32x64x512.rank) ∈ (D64).rhsBatch by decide),
    dif_pos (show (2 : Fin S32x64x512.rank) ∈ (D64).rhsNonContracting by decide)]; rfl

theorem lhsIdx64 (k r : Fin 32) (p : Fin 512) (q : (D64).contr.Idx) (i : Fin 64) (hq : (q ⟨0, by decide⟩ : ℕ) = i.val) :
    (D64).lhsIdx (ix3 k r p) q = ix3 k r i := by
  funext a; apply Fin.ext
  match a with
  | ⟨0, _⟩ => exact lhs64_0 _ q
  | ⟨1, _⟩ => exact lhs64_1 _ q
  | ⟨2, _⟩ => exact ((D64).lhsIdx_val_of_single rfl _ q).trans hq

theorem rhsIdx64 (k r : Fin 32) (p : Fin 512) (q : (D64).contr.Idx) (i : Fin 64) (hq : (q ⟨0, by decide⟩ : ℕ) = i.val) :
    (D64).rhsIdx (ix3 k r p) q = ix3 k i p := by
  funext a; apply Fin.ext
  match a with
  | ⟨0, _⟩ => exact rhs64_0 _ q
  | ⟨1, _⟩ => exact ((D64).rhsIdx_val_of_single rfl _ q).trans hq
  | ⟨2, _⟩ => exact rhs64_2 _ q

/-- THE TABLE READ over 512 columns: the product of the repeated table with the one-hot tensor of the words `w`, into
    the zero accumulator, is at (k, r, p) the table's entry (k, r, ·) at the column the word at (k, p) names. -/
theorem gather512_apply (tbl : FVec Ideal S32x32x512 .bf16) (hv : FVec Ideal S32x512x512 .bf16) (w : IVec S32x512 32)
    (hh : ∀ (k : Fin 32) (i p : Fin 512), hv (ix3 k i p) = hot (w (ix2 k p)) (BitVec.ofNat 32 i.val))
    (k r : Fin 32) (p : Fin 512) (hw : (w (ix2 k p)).toNat < 512) :
    matmul D512 none tbl hv (constant S32x32x512 .f32 0x00000000#32) (ix3 k r p) = tbl (ix3 k r ⟨(w (ix2 k p)).toNat, hw⟩) := by
  refine (Cert.LibMatmul.matmul_zero_sum1 D512 none 512 rfl rfl tbl hv (ix3 k r p) (fun i => ix3 k r i) (fun i => ix3 k i p)
    (fun q i hq => lhsIdx512 k r p q i hq) (fun q i hq => rhsIdx512 k r p q i hq)).trans ?_
  rw [Finset.sum_congr rfl (fun i _ => by rw [hh k i p])]
  exact sum_mul_hot (by norm_num) (fun i => tbl (ix3 k r i)) (w (ix2 k p)) hw

/-- THE TABLE READ over 64 columns. -/
theorem gather64_apply (tbl : FVec Ideal S32x32x64 .bf16) (hv : FVec Ideal S32x64x512 .bf16) (w : IVec S32x512 32)
    (hh : ∀ (k : Fin 32) (i : Fin 64) (p : Fin 512), hv (ix3 k i p) = hot (w (ix2 k p)) (BitVec.ofNat 32 i.val))
    (k r : Fin 32) (p : Fin 512) (hw : (w (ix2 k p)).toNat < 64) :
    matmul D64 none tbl hv (constant S32x32x512 .f32 0x00000000#32) (ix3 k r p) = tbl (ix3 k r ⟨(w (ix2 k p)).toNat, hw⟩) := by
  refine (Cert.LibMatmul.matmul_zero_sum1 D64 none 64 rfl rfl tbl hv (ix3 k r p) (fun i => ix3 k r i) (fun i => ix3 k i p)
    (fun q i hq => lhsIdx64 k r p q i hq) (fun q i hq => rhsIdx64 k r p q i hq)).trans ?_
  rw [Finset.sum_congr rfl (fun i _ => by rw [hh k i p])]
  exact sum_mul_hot (by norm_num) (fun i => tbl (ix3 k r i)) (w (ix2 k p)) hw

end Cert.KernelIdeal.Block

end
-- ==== Proof.LibPlainMatmul.lean ====
import Idealize.ShloMosaic.Lib.ValueIdx
import Idealize.ShloMosaic.Lib.StackMember
import Idealize.ShloMosaic.PureOps.Ideal.Laws

/-! # A plain matrix product into zero, read at an index

For an m×k matrix A and a k×n matrix B, the product that contracts A's second axis with B's first, with no batch
axis, has at row a and column b the entry  ∑ c, A(a, c) · B(c, b).  At the ideal values this holds of the matrix
unit's product accumulated into the zero splat exactly as it holds of the host's product: the accumulator
contributes the extended real 0, and neither rounds nor orders the sum. The host's form is the library's
(`StackMember.dotGeneral_plain_apply`); the matrix unit's form is derived from it here, since both read at an index
as the same sum over the contraction index. -/

noncomputable section

namespace Cert.LibPlainMatmul

open Idealize.ShloMosaic Idealize.ShloMosaic.ValueIdx

/-- The matrix unit's plain product into the zero splat, at row `a` and column `b`, is the sum over the contracted
    coordinate of the products of the entries. At the ideal values. -/
theorem matmul_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec .single A B (ix2 a b)).symm.trans
      (StackMember.dotGeneral_plain_apply prec A B a b))

/-- The host's plain product at row `a` and column `b`, restated beside it. -/
theorem dotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) :=
  StackMember.dotGeneral_plain_apply prec A B a b

end Cert.LibPlainMatmul

end
-- ==== Proof.KernelBlock.lean ====
/-
  One grid point's output block, entry by entry.

  From the point's three coordinate blocks [32, 512] the body takes the column words, reads the three (repeated) tables
  at them through one-hot products, multiplies the three reads, sums over the tables' 32 rows r (axis 1), transposes
  the [32, 512] features to [512, 32], multiplies by the transposed weights [32, 256] into the zero accumulator and adds
  the bias row. So entry (p, q) of the block is  Σ_k (Σ_r tA[k,r,col] · tB[k,r,col'] · tC[k,r,col'']) · Wt[k, q] + bias[0, q].
-/
import proofs.«112790_j70884140253839_1_alg».proof.Proof.KernelHot
import proofs.«112790_j70884140253839_1_alg».proof.Proof.LibPlainMatmul
import Idealize.ShloMosaic.PureOps.Ideal.Laws

noncomputable section

namespace Cert.KernelIdeal.Block

open Cert.KernelIdeal Cert.KernelIdeal.Gen Idealize.ShloMosaic Idealize.ShloMosaic.ValueIdx Cert.TableWord Cert.FieldSpec

/-- The index the sum over axis 1 puts back at position r of (k, p) is (k, r, p). -/
theorem lift_row (k r : Fin 32) (p : Fin 512) :
    reduces_S32x32x512_S32x512.lift (ix2 k p) r = ix3 k r p :=
  funext fun a => Fin.ext (by match a with | ⟨0, _⟩ => rfl | ⟨1, _⟩ => rfl | ⟨2, _⟩ => rfl)

/-- THE BLOCK'S ENTRY (p, q), from the words of the block's coordinates (`wx` through its one-hot tensor `hx`, `w1`,
    `w2`), the three table blocks, the weights and the bias row. -/
theorem pay1_apply (w1 w2 wx : IVec S32x512 32) (hx : FVec Ideal S32x512x512 .bf16)
    (a3 : FVec Ideal S32x32x512 .bf16) (a4 : Vec Ideal S32x32x512 .bf16) (a5 : Vec Ideal S32x32x64 .bf16)
    (wt : Vec Ideal S32x256 .bf16) (bias : Vec Ideal S1x256 .f32)
    (hhx : ∀ (k : Fin 32) (i p : Fin 512), hx (ix3 k i p) = hot (wx (ix2 k p)) (BitVec.ofNat 32 i.val))
    (bx : ∀ (k : Fin 32) (p : Fin 512), (wx (ix2 k p)).toNat < 512)
    (b1 : ∀ (k : Fin 32) (p : Fin 512), (w1 (ix2 k p)).toNat < 512)
    (b2 : ∀ (k : Fin 32) (p : Fin 512), (w2 (ix2 k p)).toNat < 64)
    (p : Fin 512) (q : Fin 256) :
    k0_pay1 (F := Ideal) w1 w2 hx a3 (constant S32x32x512 .f32 0x00000000#32) a4 a5 wt bias (ix2 p q)
      = (∑ k : Fin 32, (∑ r : Fin 32, a3 (ix3 k r ⟨(wx (ix2 k p)).toNat, bx k p⟩) * a4 (ix3 k r ⟨(w1 (ix2 k p)).toNat, b1 k p⟩)
            * a5 (ix3 k r ⟨(w2 (ix2 k p)).toNat, b2 k p⟩)) * wt (ix2 k q))
        + bias (ix2 (0 : Fin 1) q) := by
  unfold k0_pay1
  refine (addf_apply _ _ _).trans ?_
  refine congrArg₂ (· + ·) ?_ ?_
  · refine (Cert.LibPlainMatmul.matmul_plain_apply none _ _ p q).trans ?_
    refine Finset.sum_congr rfl fun k _ => ?_
    refine congrArg₂ (· * ·) ?_ ?_
    · refine (transpose_ix2_apply _ _ p k).trans ?_
      refine (truncf_apply (φ := .f32) (ψ := .bf16) _ bitsLt_bf16_f32 (ix2 k p)).trans ?_
      refine (Ideal.multiReduction_add_single _ _ _ _ _ (ix2 k p)).trans ?_
      refine Finset.sum_congr rfl fun r _ => ?_
      refine (congrArg _ (lift_row k r p)).trans ?_
      refine (mulf_apply _ _ _).trans ?_
      refine congrArg₂ (· * ·) ((mulf_apply _ _ _).trans (congrArg₂ (· * ·) ?_ ?_)) ?_
      · exact gather512_apply a3 hx wx hhx k r p (bx k p)
      · refine (gather512_apply _ _ w1 (fun k i p => hotTensor_apply w1 _ _ _ _ _ _ k i p) k r p (b1 k p)).trans ?_
        exact congrFun (shapeCast_self a4 _) _
      · refine (gather64_apply _ _ w2 (fun k i p => hotTensor_apply w2 _ _ _ _ _ _ k i p) k r p (b2 k p)).trans ?_
        exact congrFun (shapeCast_self a5 _) _
    · exact congrFun (shapeCast_self wt _) _
  · refine (ValueIdx.broadcastTo_1b_ab_apply _ _ p q).trans ?_
    exact congrFun (shapeCast_self bias _) _

/-- THE BLOCK'S ENTRY (p, q) FROM THE EIGHT INPUT BLOCKS: the dense layer over the 32 slots' features, each feature
    the sum over the rows r of the three table blocks' entries at the columns the block's coordinates name. -/
theorem block_apply (x0 x1 x2 : Vec Ideal S32x512 .f32) (x3 x4 : Vec Ideal S32x32x512 .bf16) (x5 : Vec Ideal S32x32x64 .bf16)
    (x6 : Vec Ideal S32x256 .bf16) (x7 : Vec Ideal S1x256 .f32) (p : Fin 512) (q : Fin 256) :
    k0_pay1 (F := Ideal) (k0_pay2 x1) (k0_pay3 x2) (k0_pay4 x0) (k0_pay5 x3) (constant S32x32x512 .f32 0x00000000#32) x4 x5 x6 x7 (ix2 p q)
      = (∑ k : Fin 32, (∑ r : Fin 32, x3 (ix3 k r (colX (x0 (ix2 k p)))) * x4 (ix3 k r (colY (x1 (ix2 k p))))
            * x5 (ix3 k r (colT (x2 (ix2 k p))))) * x6 (ix2 k q))
        + x7 (ix2 (0 : Fin 1) q) := by
  refine (pay1_apply (k0_pay2 x1) (k0_pay3 x2) (fun j => wordX (x0 j)) (k0_pay4 x0) (k0_pay5 x3) x4 x5 x6 x7 (pay4_apply x0)
    (fun k p => Nat.lt_of_le_of_lt (wordX_le (x0 (ix2 k p))) (by decide))
    (fun k p => Nat.lt_of_le_of_lt (wordY_le (x1 (ix2 k p))) (by decide))
    (fun k p => Nat.lt_of_le_of_lt (wordT_le (x2 (ix2 k p))) (by decide)) p q).trans ?_
  rw [pay5_eq]
  rfl

end Cert.KernelIdeal.Block

end
-- ==== Proof.KernelArray.lean ====
/-
  From blocks to the whole result array.

  Grid point t (0 ≤ t < 256) reads columns 512·t … 512·t + 511 of the three coordinate arrays, the whole of the three
  repeated tables, of the transposed weights and of the bias row, and writes rows 512·t … 512·t + 511 of the result.
  The repeated tables are the tables broadcast over a new leading slot axis, the weights are transposed, the bias is
  recast as a row: read at an index each is an entry of an argument array. So what point t writes is rows
  512·t … 512·t + 511 of the specification, and the 256 blocks cover the result.
-/
import proofs.«112790_j70884140253839_1_alg».proof.Proof.Gen.KernelIdeal.Value
import proofs.«112790_j70884140253839_1_alg».proof.Proof.KernelBlock
import Idealize.ShloMosaic.Lib.StableHlo.Run

set_option maxRecDepth 16384

noncomputable section

namespace Cert.KernelIdeal.Arr

open Cert.KernelIdeal Cert.KernelIdeal.Gen Idealize.ShloMosaic Idealize.ShloMosaic.TcCoe Idealize.SL.Sem
open Idealize.ShloMosaic.ValueIdx Cert.TableWord Cert.FieldSpec Cert.KernelIdeal.Block
open Idealize.ShloMosaic.Pipeline (Dat)

variable (m : (ℓ : Loc nD τ sig) → Buf (Elt Ideal) ℓ) (ρ : Dev nD → PrngReg)

/-- The specification at the argument arrays as launched. -/
abbrev Gm (c : Dev nD) : S131072x256.Idx → EReal :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-! ## The arrays the host wrote before the region, read at an index -/

theorem V_v2 (c : Dev nD) : (V m c main_v2 : S32x32x512.Idx → EReal) =
    broadcastInDim S32x32x512 ![0, 1, 2] bcast_S1x32x512_S32x32x512_0_1_2 (broadcastInDim S1x32x512 ![1, 2] bcast_S32x512_S1x32x512_1_2
      (truncf (F := Ideal) .bf16 (m ((c : Thread nD τ).loc main_arg3)) bitsLt_bf16_f32)) := by
  dsimp only [Gen.V, Gen.hostOps0]; after_results

theorem V_v5 (c : Dev nD) : (V m c main_v5 : S32x32x512.Idx → EReal) =
    broadcastInDim S32x32x512 ![0, 1, 2] bcast_S1x32x512_S32x32x512_0_1_2 (broadcastInDim S1x32x512 ![1, 2] bcast_S32x512_S1x32x512_1_2
      (truncf (F := Ideal) .bf16 (m ((c : Thread nD τ).loc main_arg4)) bitsLt_bf16_f32)) := by
  dsimp only [Gen.V, Gen.hostOps0]; after_results

theorem V_v8 (c : Dev nD) : (V m c main_v8 : S32x32x64.Idx → EReal) =
    broadcastInDim S32x32x64 ![0, 1, 2] bcast_S1x32x64_S32x32x64_0_1_2 (broadcastInDim S1x32x64 ![1, 2] bcast_S32x64_S1x32x64_1_2
      (truncf (F := Ideal) .bf16 (m ((c : Thread nD τ).loc main_arg5)) bitsLt_bf16_f32)) := by
  dsimp only [Gen.V, Gen.hostOps0]; after_results

theorem V_v10 (c : Dev nD) : (V m c main_v10 : S32x256.Idx → EReal) =
    truncf (F := Ideal) .bf16 (transpose S32x256 [1, 0] (m ((c : Thread nD τ).loc main_arg6)) transposes_S256x32_S32x256_1_0) bitsLt_bf16_f32 := by
  dsimp only [Gen.V, Gen.hostOps0]; after_results

theorem V_v11 (c : Dev nD) : (V m c main_v11 : S1x256.Idx → EReal) =
    shapeCast S1x256 (m ((c : Thread nD τ).loc main_arg7)) shapeCasts_S256_S1x256 := by
  dsimp only [Gen.V, Gen.hostOps0]; after_results; rfl

/-- A table broadcast over a new leading slot axis reads, at (k, r, i), the table at (r, i). -/
theorem tbl_apply {M : Nat} (A : (⟨2, ![32, M]⟩ : Shape).Idx → EReal)
    (h1 : (⟨2, ![32, M]⟩ : Shape).BroadcastsInDim ⟨3, ![1, 32, M]⟩ ![1, 2])
    (h2 : (⟨3, ![1, 32, M]⟩ : Shape).BroadcastsInDim ⟨3, ![32, 32, M]⟩ ![0, 1, 2]) (hb : FTy.bits .bf16 < FTy.bits .f32)
    (k r : Fin 32) (i : Fin M) :
    broadcastInDim ⟨3, ![32, 32, M]⟩ ![0, 1, 2] h2 (broadcastInDim ⟨3, ![1, 32, M]⟩ ![1, 2] h1 (truncf (F := Ideal) .bf16 A hb)) (ix3 k r i)
      = A (ix2 r i) := by
  refine (broadcastInDim_apply _ h2 _ (ix3 k r i) (ix3 (0 : Fin 1) r i) (fun a => ?_)).trans ?_
  · match a with
    | ⟨0, _⟩ => rfl
    | ⟨1, _⟩ => rfl
    | ⟨2, _⟩ =>
      show i.val = if M = 1 then 0 else i.val
      split
      · have := i.isLt; omega
      · rfl
  refine (broadcastInDim_apply _ h1 _ (ix3 (0 : Fin 1) r i) (ix2 r i) (fun a => ?_)).trans rfl
  match a with
  | ⟨0, _⟩ => rfl
  | ⟨1, _⟩ =>
    show i.val = if M = 1 then 0 else i.val
    split
    · have := i.isLt; omega
    · rfl

/-! ## The index maps over the grid, and each window's block at a point -/

theorem hz2 : (![0, 0] : Fin 2 → Nat) = fun _ => 0 := funext fun a => by fin_cases a <;> rfl
theorem hz3 : (![0, 0, 0] : Fin 3 → Nat) = fun _ => 0 := funext fun a => by fin_cases a <;> rfl

/-- Decided over the 256 points: the coordinate windows take column block t, the table, weight and bias windows their
    one block, and the result window row block t. -/
theorem idx_facts : ∀ t : Fin cfg0.N, win0_0.index t (0 : Fin 2) = 0
    ∧ win0_0.index t (1 : Fin 2) = win0_8.index t (0 : Fin 2)
    ∧ win0_1.index t (0 : Fin 2) = 0
    ∧ win0_1.index t (1 : Fin 2) = win0_8.index t (0 : Fin 2)
    ∧ win0_2.index t (0 : Fin 2) = 0
    ∧ win0_2.index t (1 : Fin 2) = win0_8.index t (0 : Fin 2)
    ∧ win0_3.index t (0 : Fin 3) = 0
    ∧ win0_3.index t (1 : Fin 3) = 0
    ∧ win0_3.index t (2 : Fin 3) = 0
    ∧ win0_4.index t (0 : Fin 3) = 0
    ∧ win0_4.index t (1 : Fin 3) = 0
    ∧ win0_4.index t (2 : Fin 3) = 0
    ∧ win0_5.index t (0 : Fin 3) = 0
    ∧ win0_5.index t (1 : Fin 3) = 0
    ∧ win0_5.index t (2 : Fin 3) = 0
    ∧ win0_6.index t (0 : Fin 2) = 0
    ∧ win0_6.index t (1 : Fin 2) = 0
    ∧ win0_7.index t (0 : Fin 2) = 0
    ∧ win0_7.index t (1 : Fin 2) = 0
    ∧ win0_8.index t (1 : Fin 2) = 0
    ∧ win0_8.index t (0 : Fin 2) = t.val :=
  (by decide +kernel : ∀ t : Fin grid0.N, _)

/-- Row 512·t + p of the result, for a point t and a row p of its block. -/
def rowOf (t : Fin cfg0.N) (p : Fin 512) : Fin 131072 :=
  ⟨win0_8.index t (0 : Fin 2) * 512 + 1 * p.val, by
    obtain ⟨e0, e1, e2, e3, e4, e5, e6, e7, e8, e9, e10, e11, e12, e13, e14, e15, e16, e17, e18, e19, e20⟩ := idx_facts t
    have := t.isLt; have := p.isLt
    have hN : cfg0.N = 256 := rfl
    omega⟩

theorem blk_x (c : Dev nD) (t : Fin cfg0.N) (k : Fin 32) (p : Fin 512) :
    iblk m c 0 t (ix2 k p) = m ((c : Thread nD τ).loc main_arg0) (ix2 k (rowOf t p)) := by
  obtain ⟨e0, e1, e2, e3, e4, e5, e6, e7, e8, e9, e10, e11, e12, e13, e14, e15, e16, e17, e18, e19, e20⟩ := idx_facts t
  show V m c main_arg0 (((cfg0.win 0).blk t).view.emb (ix2 k p)) = _
  rw [V_main_arg0]
  refine congrArg _ (funext fun a => Fin.ext ?_)
  match a with
  | ⟨0, _⟩ => show win0_0.index t (0 : Fin 2) * 32 + 1 * k.val = k.val; omega
  | ⟨1, _⟩ => show win0_0.index t (1 : Fin 2) * 512 + 1 * p.val = win0_8.index t (0 : Fin 2) * 512 + 1 * p.val; omega

theorem blk_y (c : Dev nD) (t : Fin cfg0.N) (k : Fin 32) (p : Fin 512) :
    iblk m c 1 t (ix2 k p) = m ((c : Thread nD τ).loc main_arg1) (ix2 k (rowOf t p)) := by
  obtain ⟨e0, e1, e2, e3, e4, e5, e6, e7, e8, e9, e10, e11, e12, e13, e14, e15, e16, e17, e18, e19, e20⟩ := idx_facts t
  show V m c main_arg1 (((cfg0.win 1).blk t).view.emb (ix2 k p)) = _
  rw [V_main_arg1]
  refine congrArg _ (funext fun a => Fin.ext ?_)
  match a with
  | ⟨0, _⟩ => show win0_1.index t (0 : Fin 2) * 32 + 1 * k.val = k.val; omega
  | ⟨1, _⟩ => show win0_1.index t (1 : Fin 2) * 512 + 1 * p.val = win0_8.index t (0 : Fin 2) * 512 + 1 * p.val; omega

theorem blk_t (c : Dev nD) (t : Fin cfg0.N) (k : Fin 32) (p : Fin 512) :
    iblk m c 2 t (ix2 k p) = m ((c : Thread nD τ).loc main_arg2) (ix2 k (rowOf t p)) := by
  obtain ⟨e0, e1, e2, e3, e4, e5, e6, e7, e8, e9, e10, e11, e12, e13, e14, e15, e16, e17, e18, e19, e20⟩ := idx_facts t
  show V m c main_arg2 (((cfg0.win 2).blk t).view.emb (ix2 k p)) = _
  rw [V_main_arg2]
  refine congrArg _ (funext fun a => Fin.ext ?_)
  match a with
  | ⟨0, _⟩ => show win0_2.index t (0 : Fin 2) * 32 + 1 * k.val = k.val; omega
  | ⟨1, _⟩ => show win0_2.index t (1 : Fin 2) * 512 + 1 * p.val = win0_8.index t (0 : Fin 2) * 512 + 1 * p.val; omega

theorem blk_A (c : Dev nD) (t : Fin cfg0.N) (k r : Fin 32) (i : Fin 512) :
    iblk m c 3 t (ix3 k r i) = m ((c : Thread nD τ).loc main_arg3) (ix2 r i) := by
  obtain ⟨e0, e1, e2, e3, e4, e5, e6, e7, e8, e9, e10, e11, e12, e13, e14, e15, e16, e17, e18, e19, e20⟩ := idx_facts t
  show V m c main_v2 (((cfg0.win 3).blk t).view.emb (ix3 k r i)) = _
  have he : ((cfg0.win 3).blk t).view.emb (ix3 k r i) = ix3 k r i := funext fun a => Fin.ext (by
    match a with
    | ⟨0, _⟩ => show win0_3.index t (0 : Fin 3) * 32 + 1 * k.val = k.val; omega
    | ⟨1, _⟩ => show win0_3.index t (1 : Fin 3) * 32 + 1 * r.val = r.val; omega
    | ⟨2, _⟩ => show win0_3.index t (2 : Fin 3) * 512 + 1 * i.val = i.val; omega)
  rw [he, V_v2]
  exact tbl_apply _ _ _ _ k r i

theorem blk_B (c : Dev nD) (t : Fin cfg0.N) (k r : Fin 32) (i : Fin 512) :
    iblk m c 4 t (ix3 k r i) = m ((c : Thread nD τ).loc main_arg4) (ix2 r i) := by
  obtain ⟨e0, e1, e2, e3, e4, e5, e6, e7, e8, e9, e10, e11, e12, e13, e14, e15, e16, e17, e18, e19, e20⟩ := idx_facts t
  show V m c main_v5 (((cfg0.win 4).blk t).view.emb (ix3 k r i)) = _
  have he : ((cfg0.win 4).blk t).view.emb (ix3 k r i) = ix3 k r i := funext fun a => Fin.ext (by
    match a with
    | ⟨0, _⟩ => show win0_4.index t (0 : Fin 3) * 32 + 1 * k.val = k.val; omega
    | ⟨1, _⟩ => show win0_4.index t (1 : Fin 3) * 32 + 1 * r.val = r.val; omega
    | ⟨2, _⟩ => show win0_4.index t (2 : Fin 3) * 512 + 1 * i.val = i.val; omega)
  rw [he, V_v5]
  exact tbl_apply _ _ _ _ k r i

theorem blk_C (c : Dev nD) (t : Fin cfg0.N) (k r : Fin 32) (i : Fin 64) :
    iblk m c 5 t (ix3 k r i) = m ((c : Thread nD τ).loc main_arg5) (ix2 r i) := by
  obtain ⟨e0, e1, e2, e3, e4, e5, e6, e7, e8, e9, e10, e11, e12, e13, e14, e15, e16, e17, e18, e19, e20⟩ := idx_facts t
  show V m c main_v8 (((cfg0.win 5).blk t).view.emb (ix3 k r i)) = _
  have he : ((cfg0.win 5).blk t).view.emb (ix3 k r i) = ix3 k r i := funext fun a => Fin.ext (by
    match a with
    | ⟨0, _⟩ => show win0_5.index t (0 : Fin 3) * 32 + 1 * k.val = k.val; omega
    | ⟨1, _⟩ => show win0_5.index t (1 : Fin 3) * 32 + 1 * r.val = r.val; omega
    | ⟨2, _⟩ => show win0_5.index t (2 : Fin 3) * 64 + 1 * i.val = i.val; omega)
  rw [he, V_v8]
  exact tbl_apply _ _ _ _ k r i

theorem blk_W (c : Dev nD) (t : Fin cfg0.N) (k : Fin 32) (q : Fin 256) :
    iblk m c 6 t (ix2 k q) = m ((c : Thread nD τ).loc main_arg6) (ix2 q k) := by
  obtain ⟨e0, e1, e2, e3, e4, e5, e6, e7, e8, e9, e10, e11, e12, e13, e14, e15, e16, e17, e18, e19, e20⟩ := idx_facts t
  show V m c main_v10 (((cfg0.win 6).blk t).view.emb (ix2 k q)) = _
  have he : ((cfg0.win 6).blk t).view.emb (ix2 k q) = ix2 k q := funext fun a => Fin.ext (by
    match a with
    | ⟨0, _⟩ => show win0_6.index t (0 : Fin 2) * 32 + 1 * k.val = k.val; omega
    | ⟨1, _⟩ => show win0_6.index t (1 : Fin 2) * 256 + 1 * q.val = q.val; omega)
  rw [he, V_v10]
  exact transpose_ix2_apply _ _ k q

theorem blk_b (c : Dev nD) (t : Fin cfg0.N) (q : Fin 256) :
    iblk m c 7 t (ix2 (0 : Fin 1) q) = m ((c : Thread nD τ).loc main_arg7) (ix1 q) := by
  obtain ⟨e0, e1, e2, e3, e4, e5, e6, e7, e8, e9, e10, e11, e12, e13, e14, e15, e16, e17, e18, e19, e20⟩ := idx_facts t
  show V m c main_v11 (((cfg0.win 7).blk t).view.emb (ix2 (0 : Fin 1) q)) = _
  have he : ((cfg0.win 7).blk t).view.emb (ix2 (0 : Fin 1) q) = ix2 (0 : Fin 1) q := funext fun a => Fin.ext (by
    match a with
    | ⟨0, _⟩ => show win0_7.index t (0 : Fin 2) * 1 + 1 * 0 = 0; omega
    | ⟨1, _⟩ => show win0_7.index t (1 : Fin 2) * 256 + 1 * q.val = q.val; omega)
  rw [he, V_v11]
  exact shapeCast_a_1a_apply _ _ (0 : Fin 1) q

/-! ## What a point writes back, the cover, and the run -/

/-- WHAT POINT `t` WRITES BACK is block `t` of the specification. -/
theorem flushed_eq (c : Dev nD) (t : Fin cfg0.N) :
    (dats m 0 c).flushed 8 t = ((cfg0.win 8).blk t).view.read (Elt Ideal) (Gm m c) := by
  rw [Value.flushed8]
  unfold Gen.out0_8
  rw [View.canon_unit_zero hz2]
  simp only [View.ld_unit_zero (S := S32x512) hz2, View.ld_unit_zero (S := S32x32x512) hz3,
    View.ld_unit_zero (S := S32x32x64) hz3, View.ld_unit_zero (S := S32x256) hz2, View.ld_unit_zero (S := S1x256) hz2]
  funext y
  obtain ⟨p, q, rfl⟩ : ∃ (p : Fin 512) (q : Fin 256), y = ix2 p q := ⟨y 0, y 1, eq_ix2 y⟩
  obtain ⟨e0, e1, e2, e3, e4, e5, e6, e7, e8, e9, e10, e11, e12, e13, e14, e15, e16, e17, e18, e19, e20⟩ := idx_facts t
  have hemb : ((cfg0.win 8).blk t).view.emb (ix2 p q) = ix2 (rowOf t p) q := funext fun a => Fin.ext (by
    match a with
    | ⟨0, _⟩ => rfl
    | ⟨1, _⟩ => show win0_8.index t (1 : Fin 2) * 256 + 1 * q.val = q.val; omega)
  show k0_pay1 (k0_pay2 (iblk m c 1 t)) (k0_pay3 (iblk m c 2 t)) (k0_pay4 (iblk m c 0 t)) (k0_pay5 (iblk m c 3 t))
      (constant S32x32x512 .f32 0x00000000#32) (iblk m c 4 t) (iblk m c 5 t) (iblk m c 6 t) (iblk m c 7 t) (ix2 p q)
    = Gm m c (((cfg0.win 8).blk t).view.emb (ix2 p q))
  rw [hemb]
  refine (block_apply (iblk m c 0 t) (iblk m c 1 t) (iblk m c 2 t) (iblk m c 3 t) (iblk m c 4 t) (iblk m c 5 t) (iblk m c 6 t)
    (iblk m c 7 t) p q).trans ?_
  show _ = (∑ k : Fin 32, feat (m ((c : Thread nD τ).loc main_arg3)) (m ((c : Thread nD τ).loc main_arg4)) (m ((c : Thread nD τ).loc main_arg5))
      (m ((c : Thread nD τ).loc main_arg0) (ix2 k (rowOf t p))) (m ((c : Thread nD τ).loc main_arg1) (ix2 k (rowOf t p)))
      (m ((c : Thread nD τ).loc main_arg2) (ix2 k (rowOf t p))) * m ((c : Thread nD τ).loc main_arg6) (ix2 q k))
    + m ((c : Thread nD τ).loc main_arg7) (ix1 q)
  refine congrArg₂ (· + ·) (Finset.sum_congr rfl fun k _ => congrArg₂ (· * ·) ?_ (blk_W m c t k q)) (blk_b m c t q)
  unfold feat
  refine Finset.sum_congr rfl fun r _ => ?_
  refine congrArg₂ (· * ·) (congrArg₂ (· * ·) ?_ ?_) ?_
  · exact (blk_A m c t k r _).trans
      (congrArg (fun z => m ((c : Thread nD τ).loc main_arg3) (ix2 r (colX z))) (blk_x m c t k p))
  · exact (blk_B m c t k r _).trans
      (congrArg (fun z => m ((c : Thread nD τ).loc main_arg4) (ix2 r (colY z))) (blk_y m c t k p))
  · exact (blk_C m c t k r _).trans
      (congrArg (fun z => m ((c : Thread nD τ).loc main_arg5) (ix2 r (colT z))) (blk_t m c t k p))

/-- An index of the result is in point `t`'s block iff each coordinate is in the block's range on its axis. -/
theorem mem_blk (t : Fin cfg0.N) (i : S131072x256.Idx) :
    i ∈ ((cfg0.win 8).blk t).view.set ↔ ∀ a : Fin 2, win0_8.index t a * S512x256.size a ≤ (i a).val
      ∧ (i a).val < win0_8.index t a * S512x256.size a + S512x256.size a := by
  show i ∈ ((View.whole main_v12).slice (win0_8.rect t)).set ↔ _
  rw [View.set_slice_whole, Rect.mem_set_unit]
  exact Iff.rfl

/-- Every index of the result is in the block of the point its row falls in. -/
theorem cover (i : S131072x256.Idx) : ∃ t : Fin cfg0.N, (cfg0.win 8).flush t = true ∧ i ∈ ((cfg0.win 8).blk t).view.set := by
  have hi0 : (i 0).val < 131072 := (i 0).isLt
  have hi1 : (i 1).val < 256 := (i 1).isLt
  have hN : cfg0.N = 256 := rfl
  let t : Fin cfg0.N := ⟨(i 0).val / 512, by omega⟩
  obtain ⟨e0, e1, e2, e3, e4, e5, e6, e7, e8, e9, e10, e11, e12, e13, e14, e15, e16, e17, e18, e19, e20⟩ := idx_facts t
  have ht : t.val = (i 0).val / 512 := rfl
  refine ⟨t, flush0_8 t, ?_⟩
  rw [mem_blk]
  intro a
  match a with
  | ⟨0, _⟩ => show win0_8.index t (0 : Fin 2) * 512 ≤ (i 0).val ∧ (i 0).val < win0_8.index t (0 : Fin 2) * 512 + 512; omega
  | ⟨1, _⟩ => show win0_8.index t (1 : Fin 2) * 256 ≤ (i 1).val ∧ (i 1).val < win0_8.index t (1 : Fin 2) * 256 + 256; omega

/-- THE RESULT ARRAY after the run is the specification at the argument arrays. -/
theorem final (c : Dev nD) : (dats m 0 c).arrAt 8 cfg0.N = Gm m c :=
  (dats m 0 c).arrAt_eq_of_cover 8 (Gm m c) (fun t _ => flushed_eq m c t) cover

/-- The frame run re-posted: the result array at the specification, the arguments unchanged. -/
theorem run : θ_run defs (onTc (τ := τ) (main (F := Ideal))) ⟨m, fun _ => 0, ρ⟩ fun r => ∀ c : Dev nD,
      r.2.mem ((c : Thread nD τ).loc main_v12) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Arr

end
-- ==== Proof.LibColGather.lean ====
/-
  A gather of COLUMNS of a matrix, read at an index.

  What `x[:, idx]` of a matrix `x : [R, N]` at an integer array `idx : [K, S]` lowers to: a gather with offset axis 0,
  collapsed slice axis 1, start index map [1], slice sizes [R, 1] and the index vector on a trailing unit axis of the
  indices `[K, S, 1]`. Result element (r, k, s) is `x` at row r and at the column `idx[k, s, 0]`, read as a signed
  integer and clamped into [0, N − 1] (a gather clamps every start index so that its slice fits).
-/
import Idealize.ShloMosaic.Lib.ValueIdx

noncomputable section

namespace Cert.LibColGather

open Idealize.ShloMosaic Idealize.ShloMosaic.ValueIdx

variable {α : Type}

/-- The dimension numbers of a column gather of `[R, N]` at start indices `[K, S, 1]` into `[R, K, S]`; their conditions
    `wf` are decided on a program's literal shapes. -/
abbrev colDims (R N K S : Nat)
    (wf : GatherDims.WF ⟨2, ![R, N]⟩ ⟨3, ![K, S, 1]⟩ ⟨3, ![R, K, S]⟩ [0] [1] [] [1] [] 2 ![R, 1]) :
    GatherDims ⟨2, ![R, N]⟩ ⟨3, ![K, S, 1]⟩ ⟨3, ![R, K, S]⟩ where
  offsetDims := [0]
  collapsedSliceDims := [1]
  operandBatchingDims := []
  startIndicesBatchingDims := []
  startIndexMap := [1]
  indexVectorDim := 2
  sliceSizes := ![R, 1]
  wf := wf

/-- THE COLUMN GATHER READ AT (r, k, s): the operand at row r and at the column the start index `idx[k, s, 0]` names,
    read signed and clamped into `[0, N − 1]`. -/
theorem gather_col_apply {R N K S w : Nat} (hN : 0 < N)
    (wf : GatherDims.WF ⟨2, ![R, N]⟩ ⟨3, ![K, S, 1]⟩ ⟨3, ![R, K, S]⟩ [0] [1] [] [1] [] 2 ![R, 1])
    (x : (⟨2, ![R, N]⟩ : Shape).Idx → α) (idx : IVec ⟨3, ![K, S, 1]⟩ w) (r : Fin R) (k : Fin K) (s : Fin S) :
    Host.gather (colDims R N K S wf) x idx (ix3 r k s)
      = x (ix2 r ⟨min (idx (ix3 k s (0 : Fin 1))).toInt.toNat (N - 1), by omega⟩) := by
  unfold Host.gather
  congr 1
  funext a
  refine Fin.ext ?_
  match a with
  | ⟨0, _⟩ =>
    show (colDims R N K S wf).start (ix3 r k s) idx 0 + (colDims R N K S wf).batchCoord (ix3 r k s) 0
      + (colDims R N K S wf).offCoord (ix3 r k s) 0 = r.val
    rw [GatherDims.batchCoord_eq_zero _ _ _ List.not_mem_nil]
    unfold GatherDims.start
    have h01 : ¬(0 : Fin 2) ∈ ([1] : List (Fin 2)) := by decide
    rw [dif_neg (show ¬(0 : Fin 2) ∈ (colDims R N K S wf).startIndexMap from h01)]
    unfold GatherDims.offCoord
    rw [dif_pos (show (0 : Fin 2) ∈ (colDims R N K S wf).sKept from
      (GatherDims.mem_sKept _ _).2 ⟨h01, List.not_mem_nil⟩)]
    simp only [Nat.zero_add, Nat.add_zero]
    rfl
  | ⟨1, _⟩ =>
    show (colDims R N K S wf).start (ix3 r k s) idx 1 + (colDims R N K S wf).batchCoord (ix3 r k s) 1
      + (colDims R N K S wf).offCoord (ix3 r k s) 1 = min (idx (ix3 k s (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims R N K S wf).startIndexMap from List.mem_singleton.mpr rfl)]
    have hsi : (colDims R N K S wf).siIdx (ix3 r k s) ⟨List.idxOf (1 : Fin 2) (colDims R N K S wf).startIndexMap,
        List.idxOf_lt_length_iff.2 (List.mem_singleton.mpr rfl)⟩ = ix3 k s (0 : Fin 1) := by
      funext b; refine Fin.ext ?_
      match b with
      | ⟨0, _⟩ => rfl
      | ⟨1, _⟩ => rfl
      | ⟨2, _⟩ => rfl
    rw [hsi]
    rfl

end Cert.LibColGather

end
-- ==== Proof.RefValue.lean ====
/-
  The reference, entry by entry, is the specification.

  The reference clamps the three coordinate arrays to column words, normalises "negative" words by adding the table's
  extent (never taken: a clamped word is not negative), gathers the tables' columns at them ([32 rows, 32 slots,
  samples]), multiplies the three gathers, sums over the rows (axis 0, from the initial value 0), transposes to
  [samples, slots], multiplies by the transposed weights and adds the bias. A gather clamps its start index into the
  table's columns; a clamped word is already there, so the gather reads the column the word names.
-/
import proofs.«112790_j70884140253839_1_alg».proof.Proof.Gen.ReferenceIdeal.Read
import proofs.«112790_j70884140253839_1_alg».proof.Proof.Spec
import proofs.«112790_j70884140253839_1_alg».proof.Proof.LibColGather

noncomputable section

namespace Cert.ReferenceIdeal.RefValue

open Cert.ReferenceIdeal Cert.ReferenceIdeal.Gen Cert.ReferenceIdeal.Read Idealize.ShloMosaic Idealize.ShloMosaic.ValueIdx
open Cert.TableWord Cert.FieldSpec

/-! ## The three clamped words -/

theorem v3_apply (x0 : S32x131072.Idx → EReal) (i : S32x131072.Idx) : val_main_v3 (F := Ideal) x0 i = wordX (x0 i) := rfl
theorem v9_apply (x1 : S32x131072.Idx → EReal) (i : S32x131072.Idx) : val_main_v9 (F := Ideal) x1 i = wordY (x1 i) := rfl
theorem v15_apply (x2 : S32x131072.Idx → EReal) (i : S32x131072.Idx) : val_main_v15 (F := Ideal) x2 i = wordT (x2 i) := rfl

/-- "Add the extent if negative" leaves a clamped word as it is. -/
theorem select_clamped {α : Type} (hi v : BitVec 32) (hhi : hi.toNat < 2 ^ 31) (a b : α) :
    Scalar.select (IntOp.cmpi .slt (clampW hi v) 0#32) a b = b := by
  rw [clampW_slt_zero hi v hhi]; exact select_zero a b

theorem v20_apply (x0 : S32x131072.Idx → EReal) (i : S32x131072.Idx) : val_main_v20 (F := Ideal) x0 i = wordX (x0 i) :=
  select_clamped 511#32 _ (by decide) _ _
theorem v27_apply (x1 : S32x131072.Idx → EReal) (i : S32x131072.Idx) : val_main_v27 (F := Ideal) x1 i = wordY (x1 i) :=
  select_clamped 511#32 _ (by decide) _ _
theorem v34_apply (x2 : S32x131072.Idx → EReal) (i : S32x131072.Idx) : val_main_v34 (F := Ideal) x2 i = wordT (x2 i) :=
  select_clamped 63#32 _ (by decide) _ _

/-- The start indices carry the word of (k, n) at (k, n, 0). -/
theorem idx21 (k : Fin 32) (n : Fin 131072) : idx_main_v21 (ix3 k n (0 : Fin 1)) = ix2 k n :=
  funext fun a => Fin.ext (by match a with | ⟨0, _⟩ => rfl | ⟨1, _⟩ => rfl)

/-- A clamped word, read signed and clamped into the table's columns, is its own natural value. -/
theorem clamp_col (hi v : BitVec 32) (hhi : hi.toNat < 2 ^ 31) (N : Nat) (hN : hi.toNat ≤ N - 1) :
    min (clampW hi v).toInt.toNat (N - 1) = (clampW hi v).toNat := by
  have h1 := clampW_le hi v hhi
  have h2 := clampW_toInt hi v hhi
  omega

/-! ## The three gathers -/

theorem v22_apply (x0 : S32x131072.Idx → EReal) (x3 : S32x512.Idx → EReal) (r k : Fin 32) (n : Fin 131072) :
    val_main_v22 (F := Ideal) x0 x3 (ix3 r k n) = x3 (ix2 r (colX (x0 (ix2 k n)))) := by
  unfold val_main_v22
  refine (Cert.LibColGather.gather_col_apply (R := 32) (N := 512) (K := 32) (S := 131072) (by norm_num)
    gather_S32x512_S32x131072x1_S32x32x131072_0_1_n_n_1_2_321.wf x3 _ r k n).trans ?_
  refine congrArg x3 (congrArg (ix2 r) (Fin.ext ?_))
  show min (val_main_v21 (F := Ideal) x0 (ix3 k n (0 : Fin 1))).toInt.toNat (512 - 1) = (wordX (x0 (ix2 k n))).toNat
  rw [val_main_v21_apply, idx21, v20_apply]
  exact clamp_col 511#32 _ (by decide) 512 (by decide)

theorem v29_apply (x1 : S32x131072.Idx → EReal) (x4 : S32x512.Idx → EReal) (r k : Fin 32) (n : Fin 131072) :
    val_main_v29 (F := Ideal) x1 x4 (ix3 r k n) = x4 (ix2 r (colY (x1 (ix2 k n)))) := by
  unfold val_main_v29
  refine (Cert.LibColGather.gather_col_apply (R := 32) (N := 512) (K := 32) (S := 131072) (by norm_num)
    gather_S32x512_S32x131072x1_S32x32x131072_0_1_n_n_1_2_321.wf x4 _ r k n).trans ?_
  refine congrArg x4 (congrArg (ix2 r) (Fin.ext ?_))
  show min (val_main_v28 (F := Ideal) x1 (ix3 k n (0 : Fin 1))).toInt.toNat (512 - 1) = (wordY (x1 (ix2 k n))).toNat
  rw [val_main_v28_apply, show idx_main_v28 (ix3 k n (0 : Fin 1)) = ix2 k n from idx21 k n, v27_apply]
  exact clamp_col 511#32 _ (by decide) 512 (by decide)

theorem v36_apply (x2 : S32x131072.Idx → EReal) (x5 : S32x64.Idx → EReal) (r k : Fin 32) (n : Fin 131072) :
    val_main_v36 (F := Ideal) x2 x5 (ix3 r k n) = x5 (ix2 r (colT (x2 (ix2 k n)))) := by
  unfold val_main_v36
  refine (Cert.LibColGather.gather_col_apply (R := 32) (N := 64) (K := 32) (S := 131072) (by norm_num)
    gather_S32x64_S32x131072x1_S32x32x131072_0_1_n_n_1_2_321.wf x5 _ r k n).trans ?_
  refine congrArg x5 (congrArg (ix2 r) (Fin.ext ?_))
  show min (val_main_v35 (F := Ideal) x2 (ix3 k n (0 : Fin 1))).toInt.toNat (64 - 1) = (wordT (x2 (ix2 k n))).toNat
  rw [val_main_v35_apply, show idx_main_v35 (ix3 k n (0 : Fin 1)) = ix2 k n from idx21 k n, v34_apply]
  exact clamp_col 63#32 _ (by decide) 64 (by decide)

/-! ## The features and the dense layer -/

/-- Entry (n, k) of the transposed row sums is slot k's feature at sample n. -/
theorem v40_apply (x0 x1 x2 : S32x131072.Idx → EReal) (x3 x4 : S32x512.Idx → EReal) (x5 : S32x64.Idx → EReal)
    (n : Fin 131072) (k : Fin 32) :
    val_main_v40 (F := Ideal) x0 x1 x2 x3 x4 x5 (ix2 n k) = feat x3 x4 x5 (x0 (ix2 k n)) (x1 (ix2 k n)) (x2 (ix2 k n)) := by
  have e40 : idx_main_v40 (ix2 n k) = ix2 k n :=
    funext fun a => Fin.ext (by match a with | ⟨0, _⟩ => rfl | ⟨1, _⟩ => rfl)
  have e39 : ∀ r : Fin 32, idx_main_v39 (ix2 k n) r = ix3 r k n := fun r =>
    funext fun a => Fin.ext (by match a with | ⟨0, _⟩ => rfl | ⟨1, _⟩ => rfl | ⟨2, _⟩ => rfl)
  rw [val_main_v40_apply, e40, val_main_v39_apply]
  rw [show (val_main_cst_15 (F := Ideal)) (Shape.Idx.first h_S_) = 0 from Ideal.ofBits_zero_f32, zero_add]
  unfold feat
  refine Finset.sum_congr rfl fun r _ => ?_
  rw [e39 r, val_main_v38_apply, val_main_v37_apply, v22_apply, v29_apply, v36_apply]
  rfl

/-- THE REFERENCE IS THE SPECIFICATION. -/
theorem ref_eq (x0 x1 x2 : S32x131072.Idx → EReal) (x3 x4 : S32x512.Idx → EReal) (x5 : S32x64.Idx → EReal)
    (x6 : S256x32.Idx → EReal) (x7 : S256.Idx → EReal) :
    val_main_v45 (F := Ideal) x0 x1 x2 x3 x4 x5 x6 x7 = G x0 x1 x2 x3 x4 x5 x6 x7 := by
  funext i
  obtain ⟨n, f, rfl⟩ : ∃ (n : Fin 131072) (f : Fin 256), i = ix2 n f := ⟨i 0, i 1, eq_ix2 i⟩
  have el : ∀ k : Fin 32, lidx_main_v42 (ix2 n f) k = ix2 n k := fun k =>
    funext fun a => Fin.ext (by match a with | ⟨0, _⟩ => rfl | ⟨1, _⟩ => rfl)
  have er : ∀ k : Fin 32, ridx_main_v42 (ix2 n f) k = ix2 k f := fun k =>
    funext fun a => Fin.ext (by match a with | ⟨0, _⟩ => rfl | ⟨1, _⟩ => rfl)
  have e41 : ∀ k : Fin 32, idx_main_v41 (ix2 k f) = ix2 f k := fun k =>
    funext fun a => Fin.ext (by match a with | ⟨0, _⟩ => rfl | ⟨1, _⟩ => rfl)
  have e44 : idx_main_v43 (idx_main_v44 (ix2 n f)) = ix1 f :=
    funext fun a => Fin.ext (by match a with | ⟨0, _⟩ => rfl)
  rw [val_main_v45_apply, val_main_v42_apply, val_main_v44_apply, val_main_v43_apply, e44]
  refine (Ideal.addf_def _ _).trans ?_
  unfold G
  refine congrArg₂ (· + ·) (Finset.sum_congr rfl fun k _ => ?_) rfl
  rw [el k, er k, v40_apply, val_main_v41_apply, e41 k]

end Cert.ReferenceIdeal.RefValue

end
-- ==== Proof.lean ====
/-
  The kernel computes, for each of 131072 samples and each of 32 slots, three table columns from the sample's three
  coordinates, reads the three tables at them, multiplies the reads and sums over the tables' 32 rows, and passes the
  32 features through a dense layer with bias. It reads a table by multiplying it with a one-hot matrix on the matrix
  unit; the reference gathers the columns. Over the extended reals a product with the one-hot entry 0 is 0 whatever
  the table holds, so the one-hot product IS the gather and the two programs are one function of their arguments
  (Proof/Spec.lean states it; Proof/KernelArray.lean and Proof/RefValue.lean prove each side equal to it). The claim
  about finite inputs is never opened: no step needs finiteness.
-/
import proofs.«112790_j70884140253839_1_alg».proof.Defs
import proofs.«112790_j70884140253839_1_alg».proof.Proof.Gen.Kernel
import proofs.«112790_j70884140253839_1_alg».proof.Proof.Gen.Kernel.Skeleton
import proofs.«112790_j70884140253839_1_alg».proof.Proof.Gen.Kernel.Launch
import proofs.«112790_j70884140253839_1_alg».proof.Proof.Gen.Kernel.Points
import proofs.«112790_j70884140253839_1_alg».proof.Proof.Gen.Kernel.Frame
import proofs.«112790_j70884140253839_1_alg».proof.Proof.Gen.KernelIdeal
import proofs.«112790_j70884140253839_1_alg».proof.Proof.Gen.KernelIdeal.Skeleton
import proofs.«112790_j70884140253839_1_alg».proof.Proof.Gen.KernelIdeal.Launch
import proofs.«112790_j70884140253839_1_alg».proof.Proof.Gen.KernelIdeal.Points
import proofs.«112790_j70884140253839_1_alg».proof.Proof.Gen.KernelIdeal.Frame
import proofs.«112790_j70884140253839_1_alg».proof.Proof.Gen.ReferenceIdeal
import proofs.«112790_j70884140253839_1_alg».proof.Proof.Gen.Pre_finite_inputs
import proofs.«112790_j70884140253839_1_alg».proof.Proof.Gen.KernelIdeal.Value
import proofs.«112790_j70884140253839_1_alg».proof.Proof.Gen.ReferenceIdeal.Run
import proofs.«112790_j70884140253839_1_alg».proof.Proof.Gen.ReferenceIdeal.Read
import proofs.«112790_j70884140253839_1_alg».proof.Proof.KernelArray
import proofs.«112790_j70884140253839_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the eight arguments both programs end with the specification's array of those
    arguments as their result. -/
theorem algebraic : Cert.algebraic_KernelIdeal_ReferenceIdeal := by
  intro m ρ m' ρ' _ hagree
  refine ⟨fun c => Cert.KernelIdeal.Arr.Gm m c, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v45_eq, Cert.ReferenceIdeal.RefValue.ref_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
